-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S3x128x128 .f32) (main_arg7 : FVec F S3x128 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : IVec S2x1600000 32) (main_arg1 : FVec F S100000x128 .f32) (main_arg2 : FVec F S128x128 .f32) (main_arg3 : FVec F S128 .f32) (main_arg4 : FVec F S128x128 .f32) (main_arg5 : FVec F S128 .f32) (main_arg6 : FVec F S3x128x128 .f32) (main_arg7 : FVec F S3x128 .f32) (main_arg8 : FVec F S128x16 .f32) (main_arg9 : FVec F S16 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S4000x128 : Shape := ⟨2, ![4000, 128]⟩
abbrev S1x128x128 : Shape := ⟨3, ![1, 128, 128]⟩
abbrev S1700000x128 : Shape := ⟨2, ![1700000, 128]⟩
abbrev S100000x16 : Shape := ⟨2, ![100000, 16]⟩
abbrev S4000x16 : Shape := ⟨2, ![4000, 16]⟩
abbrev S1700000x16 : Shape := ⟨2, ![1700000, 16]⟩
abbrev S1x16 : Shape := ⟨2, ![1, 16]⟩

abbrev nBuf : Space → Nat
  | .hbm => 141
  | .vmem => 28
  | .smem => 0
  | _ => 0

abbrev hbmTy0_0 (i : Nat) : BufTy := match i % 128 with
  | 0 => ⟨S2x1600000, .i32⟩
  | 1 => ⟨S100000x128, .f32⟩
  | 2 => ⟨S128x128, .f32⟩
  | 3 => ⟨S128, .f32⟩
  | 4 => ⟨S128x128, .f32⟩
  | 5 => ⟨S128, .f32⟩
  | 6 => ⟨S3x128x128, .f32⟩
  | 7 => ⟨S3x128, .f32⟩
  | 8 => ⟨S128x16, .f32⟩
  | 9 => ⟨S16, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S1x128, .f32⟩
  | 47 => ⟨S1x128, .f32⟩
  | 48 => ⟨S100000x128, .f32⟩
  | 49 => ⟨S1x128x128, .f32⟩
  | 50 => ⟨S128x128, .f32⟩
  | 51 => ⟨S1x128, .f32⟩
  | 52 => ⟨S128, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S1x128x128, .f32⟩
  | 74 => ⟨S128x128, .f32⟩
  | 75 => ⟨S1x128, .f32⟩
  | 76 => ⟨S128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S1x128x128, .f32⟩
  | 98 => ⟨S128x128, .f32⟩
  | 99 => ⟨S1x128, .f32⟩
  | 100 => ⟨S128, .f32⟩
  | 101 => ⟨S100000x128, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x128, .f32⟩
  | 111 => ⟨S1700000x1, .f32⟩
  | 112 => ⟨S1700000x128, .f32⟩
  | 113 => ⟨S1700000x128, .f32⟩
  | 114 => ⟨S_, .f32⟩
  | 115 => ⟨S100000x128, .f32⟩
  | 116 => ⟨S1700000x1, .i32⟩
  | 117 => ⟨S100000x128, .f32⟩
  | 118 => ⟨S1x128, .f32⟩
  | 119 => ⟨S100000x128, .f32⟩
  | 120 => ⟨S100000x128, .f32⟩
  | 121 => ⟨S100000x16, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S2x1600000, .i32⟩

abbrev hbmTy0_1 (i : Nat) : BufTy := match i % 128 with
  | 0 => ⟨S1700000, .i32⟩
  | 1 => ⟨S1700000x1, .i32⟩
  | 2 => ⟨S1700000x16, .f32⟩
  | 3 => ⟨S1700000x1, .f32⟩
  | 4 => ⟨S1700000x16, .f32⟩
  | 5 => ⟨S1700000x16, .f32⟩
  | 6 => ⟨S_, .f32⟩
  | 7 => ⟨S100000x16, .f32⟩
  | 8 => ⟨S1700000x1, .i32⟩
  | 9 => ⟨S100000x16, .f32⟩
  | 10 => ⟨S1x16, .f32⟩
  | 11 => ⟨S100000x16, .f32⟩
  | 12 => ⟨S100000x16, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S128x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S128x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S128x16, .f32⟩
  | .local _ .vmem, ⟨26, _⟩ => ⟨S4000x16, .f32⟩
  | .local _ .vmem, ⟨27, _⟩ => ⟨S4000x16, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_5 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_8 : Ref sig .tc := ⟨.hbm, 78, rfl⟩
abbrev main_v58 : Ref sig .tc := ⟨.hbm, 79, rfl⟩
abbrev main_v59 : Ref sig .tc := ⟨.hbm, 80, rfl⟩
abbrev main_c_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_11 : Ref sig .tc := ⟨.hbm, 102, rfl⟩
abbrev main_v79 : Ref sig .tc := ⟨.hbm, 103, rfl⟩
abbrev main_v80 : Ref sig .tc := ⟨.hbm, 104, rfl⟩
abbrev main_c_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_13 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_14 : Ref sig .tc := ⟨.hbm, 122, rfl⟩
abbrev main_v96 : Ref sig .tc := ⟨.hbm, 123, rfl⟩
abbrev main_v97 : Ref sig .tc := ⟨.hbm, 124, rfl⟩
abbrev main_c_15 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_16 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S4000x128_S4000x128 : S4000x128.ShapeCasts S4000x128
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  inb_S128x16_S128x16_0_0 : ∀ a, (![0, 0] : Fin 2 → Nat) a + S128x16.size a ≤ S128x16.size a
  h_S128x16 : 0 < S128x16.numel
  inb_S4000x16_S4000x16_0_0 : ∀ a, (![0, 0] : Fin 2 → Nat) a + S4000x16.size a ≤ S4000x16.size a
  h_S4000x16 : 0 < S4000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x16_S4000x16_1_0_0_1_n_n_wf : DotDims.WF S4000x128 S128x16 S4000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S100000x128.size a
  hwx4_0 : ∀ i : grid4.Coords, EltTy.bits .f32 = 32 ∨ (Rect.block (s := S100000x128) S4000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x16.size a ≤ S100000x16.size a
  hwx4_2 : ∀ i : grid4.Coords, EltTy.bits .f32 = 32 ∨ (Rect.block (s := S100000x16) S4000x16.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg1) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S4000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v94) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S4000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S2x1600000 : Shape := ⟨2, ![2, 1600000]⟩
abbrev S100000x128 : Shape := ⟨2, ![100000, 128]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x128 : Shape := ⟨2, ![1, 128]⟩
abbrev S_ : Shape := ⟨0, ![]⟩
abbrev S1x128x128 : Shape := ⟨3, ![1, 128, 128]⟩
abbrev S1700000x1 : Shape := ⟨2, ![1700000, 1]⟩
abbrev S1700000x128 : Shape := ⟨2, ![1700000, 128]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 249
  | .vmem => 0
  | .smem => 0
  | _ => 0

abbrev hbmTy0_0 (i : Nat) : BufTy := match i % 128 with
  | 0 => ⟨S2x1600000, .i32⟩
  | 1 => ⟨S100000x128, .f32⟩
  | 2 => ⟨S128x128, .f32⟩
  | 3 => ⟨S128, .f32⟩
  | 4 => ⟨S128x128, .f32⟩
  | 5 => ⟨S128, .f32⟩
  | 6 => ⟨S3x128x128, .f32⟩
  | 7 => ⟨S3x128, .f32⟩
  | 8 => ⟨S128x16, .f32⟩
  | 9 => ⟨S16, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S100000x128, .f32⟩
  | 18 => ⟨S1x128, .f32⟩
  | 19 => ⟨S100000x128, .f32⟩
  | 20 => ⟨S100000x128, .f32⟩
  | 21 => ⟨S100000x128, .f32⟩
  | 22 => ⟨S100000x128, .f32⟩
  | 23 => ⟨S_, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S1x128x128, .f32⟩
  | 42 => ⟨S128x128, .f32⟩
  | 43 => ⟨S1x128, .f32⟩
  | 44 => ⟨S128, .f32⟩
  | 45 => ⟨S100000x128, .f32⟩
  | 46 => ⟨S_, .f32⟩
  | 47 => ⟨S1700000, .f32⟩
  | 48 => ⟨S_, .f32⟩
  | 49 => ⟨S100000, .f32⟩
  | 50 => ⟨S1700000x1, .i32⟩
  | 51 => ⟨S100000, .f32⟩
  | 52 => ⟨S_, .f32⟩
  | 53 => ⟨S100000, .f32⟩
  | 54 => ⟨S100000, .f32⟩
  | 55 => ⟨S100000, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000, .f32⟩
  | 74 => ⟨S1700000, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x1, .f32⟩
  | 85 => ⟨S1700000x128, .f32⟩
  | 86 => ⟨S1700000x128, .f32⟩
  | 87 => ⟨S_, .f32⟩
  | 88 => ⟨S100000x128, .f32⟩
  | 89 => ⟨S1700000x1, .i32⟩
  | 90 => ⟨S100000x128, .f32⟩
  | 91 => ⟨S1x128, .f32⟩
  | 92 => ⟨S100000x128, .f32⟩
  | 93 => ⟨S100000x128, .f32⟩
  | 94 => ⟨S1x128x128, .f32⟩
  | 95 => ⟨S128x128, .f32⟩
  | 96 => ⟨S1x128, .f32⟩
  | 97 => ⟨S128, .f32⟩
  | 98 => ⟨S100000x128, .f32⟩
  | 99 => ⟨S_, .f32⟩
  | 100 => ⟨S1700000, .f32⟩
  | 101 => ⟨S_, .f32⟩
  | 102 => ⟨S100000, .f32⟩
  | 103 => ⟨S1700000x1, .i32⟩
  | 104 => ⟨S100000, .f32⟩
  | 105 => ⟨S_, .f32⟩
  | 106 => ⟨S100000, .f32⟩
  | 107 => ⟨S100000, .f32⟩
  | 108 => ⟨S100000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000, .f32⟩
  | 127 => ⟨S1700000, .f32⟩
  | _ => ⟨S2x1600000, .i32⟩

abbrev hbmTy0_1 (i : Nat) : BufTy := match i % 128 with
  | 0 => ⟨S_, .i32⟩
  | 1 => ⟨S1700000, .i32⟩
  | 2 => ⟨S1700000, .i1⟩
  | 3 => ⟨S_, .i32⟩
  | 4 => ⟨S1700000, .i32⟩
  | 5 => ⟨S1700000, .i32⟩
  | 6 => ⟨S1700000, .i32⟩
  | 7 => ⟨S1700000x1, .i32⟩
  | 8 => ⟨S1700000x128, .f32⟩
  | 9 => ⟨S1700000x1, .f32⟩
  | 10 => ⟨S1700000x128, .f32⟩
  | 11 => ⟨S1700000x128, .f32⟩
  | 12 => ⟨S_, .f32⟩
  | 13 => ⟨S100000x128, .f32⟩
  | 14 => ⟨S1700000x1, .i32⟩
  | 15 => ⟨S100000x128, .f32⟩
  | 16 => ⟨S1x128, .f32⟩
  | 17 => ⟨S100000x128, .f32⟩
  | 18 => ⟨S100000x128, .f32⟩
  | 19 => ⟨S1x128x128, .f32⟩
  | 20 => ⟨S128x128, .f32⟩
  | 21 => ⟨S1x128, .f32⟩
  | 22 => ⟨S128, .f32⟩
  | 23 => ⟨S100000x128, .f32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S100000x16, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000x16, .f32⟩
  | 111 => ⟨S1700000x1, .f32⟩
  | 112 => ⟨S1700000x16, .f32⟩
  | 113 => ⟨S1700000x16, .f32⟩
  | 114 => ⟨S_, .f32⟩
  | 115 => ⟨S100000x16, .f32⟩
  | 116 => ⟨S1700000x1, .i32⟩
  | 117 => ⟨S100000x16, .f32⟩
  | 118 => ⟨S1x16, .f32⟩
  | 119 => ⟨S100000x16, .f32⟩
  | 120 => ⟨S100000x16, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_cst_13 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_15 : Ref sig .tc := ⟨.hbm, 109, rfl⟩
abbrev main_v82 : Ref sig .tc := ⟨.hbm, 110, rfl⟩
abbrev main_v83 : Ref sig .tc := ⟨.hbm, 111, rfl⟩
abbrev main_c_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_17 : Ref sig .tc := ⟨.hbm, 118, rfl⟩
abbrev main_v89 : Ref sig .tc := ⟨.hbm, 119, rfl⟩
abbrev main_v90 : Ref sig .tc := ⟨.hbm, 120, rfl⟩
abbrev main_c_18 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_19 : Ref sig .tc := ⟨.hbm, 128, rfl⟩
abbrev main_v97 : Ref sig .tc := ⟨.hbm, 129, rfl⟩
abbrev main_v98 : Ref sig .tc := ⟨.hbm, 130, rfl⟩
abbrev main_c_20 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_21 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_22 : Ref sig .tc := ⟨.hbm, 152, rfl⟩
abbrev main_v118 : Ref sig .tc := ⟨.hbm, 153, rfl⟩
abbrev main_cst_23 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_24 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_c_25 : Ref sig .tc := ⟨.hbm, 162, rfl⟩
abbrev main_v125 : Ref sig .tc := ⟨.hbm, 163, rfl⟩
abbrev main_v126 : Ref sig .tc := ⟨.hbm, 164, rfl⟩
abbrev main_c_26 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_c_27 : Ref sig .tc := ⟨.hbm, 171, rfl⟩
abbrev main_v132 : Ref sig .tc := ⟨.hbm, 172, rfl⟩
abbrev main_v133 : Ref sig .tc := ⟨.hbm, 173, rfl⟩
abbrev main_c_28 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_c_29 : Ref sig .tc := ⟨.hbm, 181, rfl⟩
abbrev main_v140 : Ref sig .tc := ⟨.hbm, 182, rfl⟩
abbrev main_v141 : Ref sig .tc := ⟨.hbm, 183, rfl⟩
abbrev main_c_30 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_cst_31 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_32 : Ref sig .tc := ⟨.hbm, 201, rfl⟩
abbrev main_v157 : Ref sig .tc := ⟨.hbm, 202, rfl⟩
abbrev main_cst_33 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_cst_34 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_c_35 : Ref sig .tc := ⟨.hbm, 211, rfl⟩
abbrev main_v164 : Ref sig .tc := ⟨.hbm, 212, rfl⟩
abbrev main_v165 : Ref sig .tc := ⟨.hbm, 213, rfl⟩
abbrev main_c_36 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_c_37 : Ref sig .tc := ⟨.hbm, 220, rfl⟩
abbrev main_v171 : Ref sig .tc := ⟨.hbm, 221, rfl⟩
abbrev main_v172 : Ref sig .tc := ⟨.hbm, 222, rfl⟩
abbrev main_c_38 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_c_39 : Ref sig .tc := ⟨.hbm, 230, rfl⟩
abbrev main_v179 : Ref sig .tc := ⟨.hbm, 231, rfl⟩
abbrev main_v180 : Ref sig .tc := ⟨.hbm, 232, rfl⟩
abbrev main_c_40 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_cst_41 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KRun.lean ====
/-
  The idealized kernel's run with its result named.

  Every weakly fair execution of the program terminates without a fault; at the end the result buffer holds what
  the last boundary of the run holds there — the contents obtained by folding the host stretches and the five
  kernel regions, in order, over the launch memory — and the ten argument arrays are as launched.
-/
import proofs.«131917_j25305947308740_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the end of every execution each unscoped buffer of each core holds what the last boundary of the run holds
    there: the run of the eleven segments (six host stretches, five kernel regions), the last thread state read against
    the final state. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run read at the result buffer and at the ten arguments: the result holds the last boundary's contents,
    and no host stretch and no region writes an argument. -/
theorem run_result : θ_run defs (onTc (τ := τ) (main (F := F))) ⟨m, fun _ => 0, ρ⟩ (fun r => ∀ c : Dev nD,
      r.2.mem ((c.tc : Thread nD τ).loc main_v111) = W11 m ρ c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v111 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)
    (run_all m ρ)

end Cert.KernelIdeal.RunValue

end
-- ==== Proof.Spec.lean ====
/-
  The graph network as whole-array functions of its ten arguments.

  Nodes 0 … 99999 carry a row of features; the edge list is the 1,600,000 given edges followed by one self loop per
  node, 1,700,000 entries in all.  With s, d the source and target of an edge, deg n the number of list entries whose
  target is n, and dinv = 1 / sqrt (max deg 1), every edge has the weight nrm e = dinv (s e) · dinv (d e), and one
  graph convolution of a feature array xw with bias b is

      conv xw n = (∑ over the entries e with d e = n of xw (s e) · nrm e) + b.

  The encoder is two dense layers with the logistic function 1 / (1 + exp (−z)); the network is the encoder, then
  three convolutions of h · W_l with 128 columns, then one convolution of h · W with 16 columns.  Everything here is
  stated once, over any interpretation of the floats, by the host operations themselves; nothing is evaluated.
-/
import proofs.«131917_j25305947308740_1_alg».proof.KernelIdeal

noncomputable section

namespace Cert.Gcn

open Idealize.ShloMosaic Cert.KernelIdeal Cert.KernelIdeal.Facts₀

variable {F : FTy → Type} [FloatOps F] [Cert.KernelIdeal.Facts]

/-- The sources of the list's entries: row 0 of the edge array, then the nodes themselves. -/
def srcIdx (adj : IVec S2x1600000 32) : IVec S1700000 32 :=
  concatenate S1700000 0 [⟨S1600000, shapeCast S1600000 (extractStridedSlice S1x1600000 ![0, 0] adj slices_S2x1600000_S1x1600000_0_0) shapeCasts_S1x1600000_S1600000⟩, ⟨S100000, iotaInDim S100000 32 0⟩] concatenates_S1600000_S100000_S1700000_d0

/-- The targets of the list's entries: row 1 of the edge array, then the nodes themselves. -/
def dstIdx (adj : IVec S2x1600000 32) : IVec S1700000 32 :=
  concatenate S1700000 0 [⟨S1600000, shapeCast S1600000 (extractStridedSlice S1x1600000 ![1, 0] adj slices_S2x1600000_S1x1600000_1_0) shapeCasts_S1x1600000_S1600000⟩, ⟨S100000, iotaInDim S100000 32 0⟩] concatenates_S1600000_S100000_S1700000_d0

/-- An index list as the one-column array a row gather reads, a negative entry first moved up by the number of nodes. -/
def wrapIdx (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- 1 / sqrt (max deg 1), deg counted over the targets. -/
def dinvOf (d : IVec S1700000 32) : FVec F S100000 .f32 :=
  Host.rsqrt (maximumf (Host.scatterAdd scatter_S100000_S1700000x1_S1700000_n_0_0_1
      (broadcastInDim S100000 ![] bcast_S_S100000 (constant S_ .f32 0x00000000#32))
      (broadcastInDim S1700000x1 ![0] bcast_S1700000_S1700000x1_0 d)
      (broadcastInDim S1700000 ![] bcast_S_S1700000 (constant S_ .f32 0x3F800000#32)))
    (broadcastInDim S100000 ![] bcast_S_S100000 (constant S_ .f32 0x3F800000#32)))

/-- The weight of every entry of the list: dinv at its source times dinv at its target. -/
def normOf (s d : IVec S1700000 32) : FVec F S1700000 .f32 :=
  mulf (Host.gather gather_S100000_S1700000x1_S1700000_n_0_n_n_0_1_1 (dinvOf (F := F) d) (wrapIdx s))
    (Host.gather gather_S100000_S1700000x1_S1700000_n_0_n_n_0_1_1 (dinvOf (F := F) d) (wrapIdx d))

/-- One graph convolution of a 128-column feature array: gather the source rows, weight them, add them up at the
    targets, add the bias row. -/
def conv128 (xw : FVec F S100000x128 .f32) (s d : IVec S1700000 32) (nrm : FVec F S1700000 .f32) (b : FVec F S128 .f32) :
    FVec F S100000x128 .f32 :=
  addf (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 d)
      (mulf (Host.gather gather_S100000x128_S1700000x1_S1700000x128_1_0_n_n_0_1_1128 xw (wrapIdx s))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The same convolution of a 16-column feature array. -/
def conv16 (xw : FVec F S100000x16 .f32) (s d : IVec S1700000 32) (nrm : FVec F S1700000 .f32) (b : FVec F S16 .f32) :
    FVec F S100000x16 .f32 :=
  addf (Host.scatterAdd scatter_S100000x16_S1700000x1_S1700000x16_1_0_0_1
      (broadcastInDim S100000x16 ![] bcast_S_S100000x16 (constant S_ .f32 0x00000000#32))
      (broadcastInDim S1700000x1 ![0] bcast_S1700000_S1700000x1_0 d)
      (mulf (Host.gather gather_S100000x16_S1700000x1_S1700000x16_1_0_n_n_0_1_116 xw (wrapIdx s))
        (broadcastInDim S1700000x16 ![0, 1] bcast_S1700000x1_S1700000x16_0_1
          (broadcastInDim S1700000x1 ![0] bcast_S1700000_S1700000x1_0 nrm))))
    (broadcastInDim S100000x16 ![0, 1] bcast_S1x16_S100000x16_0_1 (broadcastInDim S1x16 ![1] bcast_S16_S1x16_1 b))

/-- The logistic function entry by entry, as the quotient 1 / (1 + exp (−z)). -/
def sigm (Z : FVec F S100000x128 .f32) : FVec F S100000x128 .f32 :=
  Host.divf (broadcastInDim S100000x128 ![] bcast_S_S100000x128 (constant S_ .f32 0x3F800000#32))
    (addf (broadcastInDim S100000x128 ![] bcast_S_S100000x128 (constant S_ .f32 0x3F800000#32)) (Host.exp (Host.negf Z)))

/-- A product with 128 columns. -/
def mm128 (X : FVec F S100000x128 .f32) (W : FVec F S128x128 .f32) : FVec F S100000x128 .f32 :=
  Host.dotGeneral (DotDims.plain 100000 128 128) none X W

/-- A product with 16 columns. -/
def mm16 (X : FVec F S100000x128 .f32) (W : FVec F S128x16 .f32) : FVec F S100000x16 .f32 :=
  Host.dotGeneral (DotDims.plain 100000 128 16) none X W

/-- A dense layer before its activation: X · W plus the bias row. -/
def dense (X : FVec F S100000x128 .f32) (W : FVec F S128x128 .f32) (b : FVec F S128 .f32) : FVec F S100000x128 .f32 :=
  addf (mm128 X W)
    (broadcastInDim S100000x128 ![0, 1] bcast_S1x128_S100000x128_0_1 (broadcastInDim S1x128 ![1] bcast_S128_S1x128_1 b))

/-- The two-layer encoder. -/
def encoder (X : FVec F S100000x128 .f32) (W1 : FVec F S128x128 .f32) (b1 : FVec F S128 .f32) (W2 : FVec F S128x128 .f32)
    (b2 : FVec F S128 .f32) : FVec F S100000x128 .f32 :=
  sigm (dense (sigm (dense X W1 b1)) W2 b2)

/-- Layer 0, 1, 2 of the stacked convolution weights and biases. -/
def gcnW0 (A : FVec F S3x128x128 .f32) : FVec F S128x128 .f32 :=
  shapeCast S128x128 (extractStridedSlice S1x128x128 ![0, 0, 0] A slices_S3x128x128_S1x128x128_0_0_0) shapeCasts_S1x128x128_S128x128
def gcnW1 (A : FVec F S3x128x128 .f32) : FVec F S128x128 .f32 :=
  shapeCast S128x128 (extractStridedSlice S1x128x128 ![1, 0, 0] A slices_S3x128x128_S1x128x128_1_0_0) shapeCasts_S1x128x128_S128x128
def gcnW2 (A : FVec F S3x128x128 .f32) : FVec F S128x128 .f32 :=
  shapeCast S128x128 (extractStridedSlice S1x128x128 ![2, 0, 0] A slices_S3x128x128_S1x128x128_2_0_0) shapeCasts_S1x128x128_S128x128
def gcnB0 (A : FVec F S3x128 .f32) : FVec F S128 .f32 :=
  shapeCast S128 (extractStridedSlice S1x128 ![0, 0] A slices_S3x128_S1x128_0_0) shapeCasts_S1x128_S128
def gcnB1 (A : FVec F S3x128 .f32) : FVec F S128 .f32 :=
  shapeCast S128 (extractStridedSlice S1x128 ![1, 0] A slices_S3x128_S1x128_1_0) shapeCasts_S1x128_S128
def gcnB2 (A : FVec F S3x128 .f32) : FVec F S128 .f32 :=
  shapeCast S128 (extractStridedSlice S1x128 ![2, 0] A slices_S3x128_S1x128_2_0) shapeCasts_S1x128_S128

/-- The whole network: the encoder, three 128-column convolutions, one 16-column convolution, all over one edge
    list and one weight per entry. -/
def network (adj : IVec S2x1600000 32) (X : FVec F S100000x128 .f32) (W1 : FVec F S128x128 .f32) (b1 : FVec F S128 .f32)
    (W2 : FVec F S128x128 .f32) (b2 : FVec F S128 .f32) (GW : FVec F S3x128x128 .f32) (GB : FVec F S3x128 .f32)
    (AW : FVec F S128x16 .f32) (AB : FVec F S16 .f32) : FVec F S100000x16 .f32 :=
  conv16 (mm16
      (conv128 (mm128
          (conv128 (mm128
              (conv128 (mm128 (encoder X W1 b1 W2 b2) (gcnW0 GW)) (srcIdx adj) (dstIdx adj)
                (normOf (srcIdx adj) (dstIdx adj)) (gcnB0 GB))
              (gcnW1 GW)) (srcIdx adj) (dstIdx adj) (normOf (srcIdx adj) (dstIdx adj)) (gcnB1 GB))
          (gcnW2 GW)) (srcIdx adj) (dstIdx adj) (normOf (srcIdx adj) (dstIdx adj)) (gcnB2 GB))
      AW) (srcIdx adj) (dstIdx adj) (normOf (srcIdx adj) (dstIdx adj)) AB

end Cert.Gcn

end
-- ==== Proof.KStretch.lean ====
/-
  What each stretch of host operations between the kernel regions computes, from any buffer contents V.

  Stretch 0 builds the edge list (sources, targets), the weight of every entry, and the two encoder biases as rows.
  Stretches 1–4 cut a layer's weights and bias out of the stacked arrays; stretches 2–5 are one graph convolution
  each of the array the preceding region left.  Each statement is the stretch's own operations composed, so it holds
  for every interpretation of the floats; a buffer no operation of a stretch writes keeps its contents.
-/
import proofs.«131917_j25305947308740_1_alg».proof.Proof.Gen.KernelIdeal.Launch
import proofs.«131917_j25305947308740_1_alg».proof.Proof.Spec
import Idealize.ShloMosaic.Lib.StableHlo.Run

set_option maxRecDepth 16384

noncomputable section

namespace Cert.Gcn

open Idealize.ShloMosaic Idealize.ShloMosaic.TcCoe Idealize.ShloMosaic.StableHlo
open Cert.KernelIdeal Cert.KernelIdeal.Gen

variable {F : FTy → Type} [FloatOps F]
variable (V : Valuation τ sig (Elt F))

-- the gathers and scatters are compared as whole applications, never opened
attribute [local irreducible] Host.gather Host.scatterAdd

/-- A buffer that no operation of a list writes keeps its contents. -/
macro "keeps_of " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## Stretch 0: the edge list, the weights, the encoder's bias rows -/

set_option maxHeartbeats 2000000 in
/-- The sources of the list's entries. -/
theorem s0_src : after (hostOps0 (F := F)) V (Proc.devRef .tc main_v3)
    = srcIdx (V (Proc.devRef .tc main_arg0)) := by
  after_results_simp
  rfl

set_option maxHeartbeats 2000000 in
/-- The targets of the list's entries. -/
theorem s0_dst : after (hostOps0 (F := F)) V (Proc.devRef .tc main_v6)
    = dstIdx (V (Proc.devRef .tc main_arg0)) := by
  after_results_simp
  rfl

set_option maxHeartbeats 2000000 in
/-- The weight of every entry, computed once. -/
theorem s0_norm : after (hostOps0 (F := F)) V (Proc.devRef .tc main_v28)
    = normOf (F := F) (srcIdx (V (Proc.devRef .tc main_arg0))) (dstIdx (V (Proc.devRef .tc main_arg0))) := by
  after_results_simp
  rfl

set_option maxHeartbeats 2000000 in
/-- The first encoder bias as one row. -/
theorem s0_b1 : after (hostOps0 (F := F)) V (Proc.devRef .tc main_v29)
    = shapeCast S1x128 (V (Proc.devRef .tc main_arg3)) shapeCasts_S128_S1x128 := by
  after_results_simp
  rfl

set_option maxHeartbeats 2000000 in
/-- The second encoder bias as one row. -/
theorem s0_b2 : after (hostOps0 (F := F)) V (Proc.devRef .tc main_v30)
    = shapeCast S1x128 (V (Proc.devRef .tc main_arg5)) shapeCasts_S128_S1x128 := by
  after_results_simp
  rfl

/-- Stretch 0 writes none of the arguments. -/
theorem s0_keep_arg1 : after (hostOps0 (F := F)) V (Proc.devRef .tc main_arg1) = V (Proc.devRef .tc main_arg1) := by keeps_of hostOps0
theorem s0_keep_arg2 : after (hostOps0 (F := F)) V (Proc.devRef .tc main_arg2) = V (Proc.devRef .tc main_arg2) := by keeps_of hostOps0
theorem s0_keep_arg4 : after (hostOps0 (F := F)) V (Proc.devRef .tc main_arg4) = V (Proc.devRef .tc main_arg4) := by keeps_of hostOps0
theorem s0_keep_arg6 : after (hostOps0 (F := F)) V (Proc.devRef .tc main_arg6) = V (Proc.devRef .tc main_arg6) := by keeps_of hostOps0
theorem s0_keep_arg7 : after (hostOps0 (F := F)) V (Proc.devRef .tc main_arg7) = V (Proc.devRef .tc main_arg7) := by keeps_of hostOps0
theorem s0_keep_arg8 : after (hostOps0 (F := F)) V (Proc.devRef .tc main_arg8) = V (Proc.devRef .tc main_arg8) := by keeps_of hostOps0
theorem s0_keep_arg9 : after (hostOps0 (F := F)) V (Proc.devRef .tc main_arg9) = V (Proc.devRef .tc main_arg9) := by keeps_of hostOps0

/-! ## Stretch 1: layer 0's weights and bias -/

set_option maxHeartbeats 2000000 in
/-- Layer 0's weights. -/
theorem s1_w : after (hostOps1 (F := F)) V (Proc.devRef .tc main_v33)
    = gcnW0 (V (Proc.devRef .tc main_arg6)) := by
  after_results_simp
  rfl

set_option maxHeartbeats 2000000 in
/-- Layer 0's bias. -/
theorem s1_b : after (hostOps1 (F := F)) V (Proc.devRef .tc main_v35)
    = gcnB0 (V (Proc.devRef .tc main_arg7)) := by
  after_results_simp
  rfl
theorem s1_keep_v31 : after (hostOps1 (F := F)) V (Proc.devRef .tc main_v31) = V (Proc.devRef .tc main_v31) := by keeps_of hostOps1
theorem s1_keep_v3 : after (hostOps1 (F := F)) V (Proc.devRef .tc main_v3) = V (Proc.devRef .tc main_v3) := by keeps_of hostOps1
theorem s1_keep_v6 : after (hostOps1 (F := F)) V (Proc.devRef .tc main_v6) = V (Proc.devRef .tc main_v6) := by keeps_of hostOps1
theorem s1_keep_v28 : after (hostOps1 (F := F)) V (Proc.devRef .tc main_v28) = V (Proc.devRef .tc main_v28) := by keeps_of hostOps1
theorem s1_keep_arg6 : after (hostOps1 (F := F)) V (Proc.devRef .tc main_arg6) = V (Proc.devRef .tc main_arg6) := by keeps_of hostOps1
theorem s1_keep_arg7 : after (hostOps1 (F := F)) V (Proc.devRef .tc main_arg7) = V (Proc.devRef .tc main_arg7) := by keeps_of hostOps1
theorem s1_keep_arg8 : after (hostOps1 (F := F)) V (Proc.devRef .tc main_arg8) = V (Proc.devRef .tc main_arg8) := by keeps_of hostOps1
theorem s1_keep_arg9 : after (hostOps1 (F := F)) V (Proc.devRef .tc main_arg9) = V (Proc.devRef .tc main_arg9) := by keeps_of hostOps1

/-! ## Stretch 2: the first convolution; layer 1's weights and bias -/

set_option maxHeartbeats 2000000 in
/-- The convolution of the array region 1 left, with layer 0's bias. -/
theorem s2_conv : after (hostOps2 (F := F)) V (Proc.devRef .tc main_v52)
    = conv128 (V (Proc.devRef .tc main_v36)) (V (Proc.devRef .tc main_v3)) (V (Proc.devRef .tc main_v6)) (V (Proc.devRef .tc main_v28)) (V (Proc.devRef .tc main_v35)) := by
  after_results_simp
  rfl

set_option maxHeartbeats 2000000 in
/-- Layer 1's weights. -/
theorem s2_w : after (hostOps2 (F := F)) V (Proc.devRef .tc main_v54)
    = gcnW1 (V (Proc.devRef .tc main_arg6)) := by
  after_results_simp
  rfl

set_option maxHeartbeats 2000000 in
/-- Layer 1's bias. -/
theorem s2_b : after (hostOps2 (F := F)) V (Proc.devRef .tc main_v56)
    = gcnB1 (V (Proc.devRef .tc main_arg7)) := by
  after_results_simp
  rfl
theorem s2_keep_v3 : after (hostOps2 (F := F)) V (Proc.devRef .tc main_v3) = V (Proc.devRef .tc main_v3) := by keeps_of hostOps2
theorem s2_keep_v6 : after (hostOps2 (F := F)) V (Proc.devRef .tc main_v6) = V (Proc.devRef .tc main_v6) := by keeps_of hostOps2
theorem s2_keep_v28 : after (hostOps2 (F := F)) V (Proc.devRef .tc main_v28) = V (Proc.devRef .tc main_v28) := by keeps_of hostOps2
theorem s2_keep_arg6 : after (hostOps2 (F := F)) V (Proc.devRef .tc main_arg6) = V (Proc.devRef .tc main_arg6) := by keeps_of hostOps2
theorem s2_keep_arg7 : after (hostOps2 (F := F)) V (Proc.devRef .tc main_arg7) = V (Proc.devRef .tc main_arg7) := by keeps_of hostOps2
theorem s2_keep_arg8 : after (hostOps2 (F := F)) V (Proc.devRef .tc main_arg8) = V (Proc.devRef .tc main_arg8) := by keeps_of hostOps2
theorem s2_keep_arg9 : after (hostOps2 (F := F)) V (Proc.devRef .tc main_arg9) = V (Proc.devRef .tc main_arg9) := by keeps_of hostOps2

/-! ## Stretch 3: the second convolution; layer 2's weights and bias -/

set_option maxHeartbeats 2000000 in
/-- The convolution of the array region 2 left, with layer 1's bias. -/
theorem s3_conv : after (hostOps3 (F := F)) V (Proc.devRef .tc main_v73)
    = conv128 (V (Proc.devRef .tc main_v57)) (V (Proc.devRef .tc main_v3)) (V (Proc.devRef .tc main_v6)) (V (Proc.devRef .tc main_v28)) (V (Proc.devRef .tc main_v56)) := by
  after_results_simp
  rfl

set_option maxHeartbeats 2000000 in
/-- Layer 2's weights. -/
theorem s3_w : after (hostOps3 (F := F)) V (Proc.devRef .tc main_v75)
    = gcnW2 (V (Proc.devRef .tc main_arg6)) := by
  after_results_simp
  rfl

set_option maxHeartbeats 2000000 in
/-- Layer 2's bias. -/
theorem s3_b : after (hostOps3 (F := F)) V (Proc.devRef .tc main_v77)
    = gcnB2 (V (Proc.devRef .tc main_arg7)) := by
  after_results_simp
  rfl
theorem s3_keep_v3 : after (hostOps3 (F := F)) V (Proc.devRef .tc main_v3) = V (Proc.devRef .tc main_v3) := by keeps_of hostOps3
theorem s3_keep_v6 : after (hostOps3 (F := F)) V (Proc.devRef .tc main_v6) = V (Proc.devRef .tc main_v6) := by keeps_of hostOps3
theorem s3_keep_v28 : after (hostOps3 (F := F)) V (Proc.devRef .tc main_v28) = V (Proc.devRef .tc main_v28) := by keeps_of hostOps3
theorem s3_keep_arg8 : after (hostOps3 (F := F)) V (Proc.devRef .tc main_arg8) = V (Proc.devRef .tc main_arg8) := by keeps_of hostOps3
theorem s3_keep_arg9 : after (hostOps3 (F := F)) V (Proc.devRef .tc main_arg9) = V (Proc.devRef .tc main_arg9) := by keeps_of hostOps3

/-! ## Stretch 4: the third convolution -/

set_option maxHeartbeats 2000000 in
/-- The convolution of the array region 3 left, with layer 2's bias. -/
theorem s4_conv : after (hostOps4 (F := F)) V (Proc.devRef .tc main_v94)
    = conv128 (V (Proc.devRef .tc main_v78)) (V (Proc.devRef .tc main_v3)) (V (Proc.devRef .tc main_v6)) (V (Proc.devRef .tc main_v28)) (V (Proc.devRef .tc main_v77)) := by
  after_results_simp
  rfl
theorem s4_keep_v3 : after (hostOps4 (F := F)) V (Proc.devRef .tc main_v3) = V (Proc.devRef .tc main_v3) := by keeps_of hostOps4
theorem s4_keep_v6 : after (hostOps4 (F := F)) V (Proc.devRef .tc main_v6) = V (Proc.devRef .tc main_v6) := by keeps_of hostOps4
theorem s4_keep_v28 : after (hostOps4 (F := F)) V (Proc.devRef .tc main_v28) = V (Proc.devRef .tc main_v28) := by keeps_of hostOps4
theorem s4_keep_arg8 : after (hostOps4 (F := F)) V (Proc.devRef .tc main_arg8) = V (Proc.devRef .tc main_arg8) := by keeps_of hostOps4
theorem s4_keep_arg9 : after (hostOps4 (F := F)) V (Proc.devRef .tc main_arg9) = V (Proc.devRef .tc main_arg9) := by keeps_of hostOps4

/-! ## Stretch 5: the last convolution, 16 columns wide -/

set_option maxHeartbeats 2000000 in
/-- The convolution of the array region 4 left, with the last bias: the result. -/
theorem s5_conv : after (hostOps5 (F := F)) V (Proc.devRef .tc main_v111)
    = conv16 (V (Proc.devRef .tc main_v95)) (V (Proc.devRef .tc main_v3)) (V (Proc.devRef .tc main_v6)) (V (Proc.devRef .tc main_v28)) (V (Proc.devRef .tc main_arg9)) := by
  after_results_simp
  rfl

end Cert.Gcn

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowBlocks.lean ====
/-
  Row blocks of a dense layer, at the ideal values.

  A layer's output array is cut into blocks of R consecutive rows; the block that starts at row o of an [N, C] array
  is computed from the matching row block of the left operand and from whole small operands (a weight matrix, a
  one-row bias).  Each lemma says: the block computation, read at an entry y of the block, is the whole-array
  host computation read at the entry of the array where y sits.  The embeddings of block entries into array
  entries are abstract maps with the two or three index equations a row block satisfies.
-/
import Idealize.ShloMosaic.PureOps.Ideal.Laws
import Idealize.ShloMosaic.Lib.ValueIdx
import Idealize.ShloMosaic.Lib.Pipeline.Value
import proofs.«131917_j25305947308740_1_alg».proof.Proof.LibPlainDot

noncomputable section

namespace Cert.Bridge

open Idealize.ShloMosaic Idealize.ShloMosaic.ValueIdx Cert.Lib.PlainDot
open scoped BigOperators

variable {R N K C : Nat}

/-- Entry (0, c) of a one-row matrix, for the column c of the entry `j`. -/
abbrev rowZero {A : Nat} (j : (⟨2, ![A, C]⟩ : Shape).Idx) : (⟨2, ![1, C]⟩ : Shape).Idx := fun a => match a with
  | ⟨0, _⟩ => ⟨0, Nat.one_pos⟩
  | ⟨1, _⟩ => ⟨(j 1).val, (j 1).isLt⟩

/-- The product of a row block with the whole right factor is the row block of the product. -/
theorem mm_block (X : (⟨2, ![N, K]⟩ : Shape).Idx → EReal) (W : (⟨2, ![K, C]⟩ : Shape).Idx → EReal)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (h0 : ∀ y k, e0 (rowIdx y k) = rowIdx (eo y) k) (h1 : ∀ y k, e1 (colIdx y k) = colIdx (eo y) k)
    (y : (⟨2, ![R, C]⟩ : Shape).Idx) :
    mm (fun j => X (e0 j)) (fun j => W (e1 j)) y = mm X W (eo y) := by
  unfold mm
  exact Finset.sum_congr rfl fun k _ => by dsimp only; rw [h0, h1]

/-- A one-row matrix stretched over R rows, read at an entry: the row's entry in that column. -/
theorem stretchRow_apply {φ : FTy} (v : FVec Ideal ⟨2, ![1, C]⟩ φ)
    (h : (⟨2, ![1, C]⟩ : Shape).Broadcasts ⟨2, ![R, C]⟩) (y : (⟨2, ![R, C]⟩ : Shape).Idx) :
    broadcastTo ⟨2, ![R, C]⟩ v h y = v (rowZero y) := by
  refine broadcastTo_apply v h y (rowZero y) (fun a => ?_)
  match a with
  | ⟨0, _⟩ => exact (if_pos rfl).symm
  | ⟨1, _⟩ =>
    show (y 1).val = if C = 1 then 0 else (y 1).val
    have hlt : (y 1).val < C := (y 1).isLt
    split_ifs with hC
    · omega
    · rfl

/-- The host's stretch of a one-row matrix over N rows, read at an entry. -/
theorem hostStretchRow_apply {φ : FTy} (v : FVec Ideal ⟨2, ![1, C]⟩ φ)
    (h : (⟨2, ![1, C]⟩ : Shape).BroadcastsInDim ⟨2, ![N, C]⟩ ![0, 1]) (i : (⟨2, ![N, C]⟩ : Shape).Idx) :
    broadcastInDim ⟨2, ![N, C]⟩ ![0, 1] h v i = v (rowZero i) := by
  refine broadcastInDim_apply ![0, 1] h v i (rowZero i) (fun a => ?_)
  match a with
  | ⟨0, _⟩ => exact (if_pos rfl).symm
  | ⟨1, _⟩ =>
    show (i 1).val = if C = 1 then 0 else (i 1).val
    have hlt : (i 1).val < C := (i 1).isLt
    split_ifs with hC
    · omega
    · rfl

/-- The host's stretch of a scalar over a matrix, read at an entry. -/
theorem hostSplat_apply {φ : FTy} (z : FVec Ideal ⟨0, ![]⟩ φ)
    (h : (⟨0, ![]⟩ : Shape).BroadcastsInDim ⟨2, ![N, C]⟩ ![]) (i : (⟨2, ![N, C]⟩ : Shape).Idx) :
    broadcastInDim ⟨2, ![N, C]⟩ ![] h z i = z ix0 :=
  broadcastInDim_apply ![] h z i ix0 (fun a => a.elim0)

/-- A vector laid out as a one-row matrix by a reshape is the vector laid out by adding a leading unit axis. -/
theorem reshapeRow_eq {φ : FTy} (v : FVec Ideal ⟨1, ![C]⟩ φ)
    (hs : (⟨1, ![C]⟩ : Shape).ShapeCasts ⟨2, ![1, C]⟩)
    (hb : (⟨1, ![C]⟩ : Shape).BroadcastsInDim ⟨2, ![1, C]⟩ ![1]) :
    shapeCast ⟨2, ![1, C]⟩ v hs = broadcastInDim ⟨2, ![1, C]⟩ ![1] hb v := by
  funext j
  have hj0 : (j 0).val = 0 := by have h : (j 0).val < 1 := (j 0).isLt; omega
  have e1 : shapeCast ⟨2, ![1, C]⟩ v hs j = v (ix1 (j 1)) :=
    shapeCast_apply v hs j (ix1 (j 1)) (by
      rw [Shape.rowMajor_val_one, Shape.rowMajor_val_two]
      show (j 1).val = (j 0).val * C + (j 1).val
      rw [hj0]; omega)
  have e2 : broadcastInDim ⟨2, ![1, C]⟩ ![1] hb v j = v (ix1 (j 1)) :=
    broadcastInDim_apply ![1] hb v j (ix1 (j 1)) (fun a => by
      match a with
      | ⟨0, _⟩ =>
        show (j 1).val = if C = 1 then 0 else (j 1).val
        have hlt : (j 1).val < C := (j 1).isLt
        split_ifs with hC
        · omega
        · rfl)
  rw [e1, e2]

/-- THE MATRIX PRODUCT of a row block, against the host's product of the whole arrays. -/
theorem dot_block {φ₁ φ₂ φ₃ φ₄ : FTy} (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ φ₃) (W : FVec Ideal ⟨2, ![K, C]⟩ φ₄)
    (x0 : FVec Ideal ⟨2, ![R, K]⟩ φ₁) (x1 : FVec Ideal ⟨2, ![K, C]⟩ φ₂)
    (e0 : (⟨2, ![R, K]⟩ : Shape).Idx → (⟨2, ![N, K]⟩ : Shape).Idx)
    (e1 : (⟨2, ![K, C]⟩ : Shape).Idx → (⟨2, ![K, C]⟩ : Shape).Idx)
    (eo : (⟨2, ![R, C]⟩ : Shape).Idx → (⟨2, ![N, C]⟩ : Shape).Idx)
    (hx0 : ∀ j, x0 j = X (e0 j)) (hx1 : ∀ j, x1 j = W (e1 j))
    (h0 : ∀ y k, e0 (rowIdx y k) = rowIdx (eo y) k) (h1 : ∀ y k, e1 (colIdx y k) = colIdx (eo y) k)
    (y : (⟨2, ![R, C]⟩ : Shape).Idx) :
    matmul d prec x0 x1 (constant ⟨2, ![R, C]⟩ .f32 0x00000000#32) y = Host.dotGeneral D prec' X W (eo y) := by
  have ex0 : (x0 : (⟨2, ![R, K]⟩ : Shape).Idx → EReal) = fun j => X (e0 j) := funext hx0
  have ex1 : (x1 : (⟨2, ![K, C]⟩ : Shape).Idx → EReal) = fun j => W (e1 j) := funext hx1
  simp only [Host.dotGeneral, matmul]
  rw [Cert.Lib.PlainDot.matmul_zero_apply d hd, Cert.Lib.PlainDot.dotGeneral_apply D hD, ex0, ex1]
  exact mm_block X W e0 e1 eo h0 h1 y

/-- THE EMBEDDING LAYER of a row block: product, one-row bias stretched over the rows, maximum with a constant —
    against the same three host operations on the whole arrays. -/
theorem embed_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (matmul d prec x0 x1 (constant ⟨2, ![R, C]⟩ .f32 0x00000000#32)) (broadcastTo ⟨2, ![R, C]⟩ x2 hb))
        (broadcast ⟨2, ![R, C]⟩ (Scalar.ofBits (F := Ideal) .f32 z)) y
      = maximumf (addf (Host.dotGeneral D prec' X W) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply,
    dot_block d hd D hD prec prec' X W x0 x1 e0 e1 eo hx0 hx1 h0 h1 y,
    stretchRow_apply, hostStretchRow_apply, hostSplat_apply, hx2, h2]
  rfl

/-- THE COMBINE STEP of a row block: two arrays added, one-row bias stretched over the rows, maximum with a
    constant — against the same host operations on the whole arrays. -/
theorem combine_block (A H : FVec Ideal ⟨2, ![N, C]⟩ .f32) (B : FVec Ideal ⟨2, ![1, C]⟩ .f32)
    (x0 x1 : FVec Ideal ⟨2, ![R, C]⟩ .f32) (x2 : FVec Ideal ⟨2, ![1, C]⟩ .f32)
    (e0 e1 : (⟨2, ![R, C]⟩ : Shape).Idx → (⟨2, ![N, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = A (e0 j)) (hx1 : ∀ j, x1 j = H (e1 j)) (hx2 : ∀ j, x2 j = B (e2 j))
    (h0 : ∀ y, e0 y = eo y) (h1 : ∀ y, e1 y = eo y) (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (hZ : (⟨0, ![]⟩ : Shape).BroadcastsInDim ⟨2, ![N, C]⟩ ![]) (z : BitVec 32)
    (y : (⟨2, ![R, C]⟩ : Shape).Idx) :
    maximumf (addf (addf x0 x1) (broadcastTo ⟨2, ![R, C]⟩ x2 hb))
        (broadcast ⟨2, ![R, C]⟩ (Scalar.ofBits (F := Ideal) .f32 z)) y
      = maximumf (addf (addf A H) (broadcastInDim ⟨2, ![N, C]⟩ ![0, 1] hB B))
        (broadcastInDim ⟨2, ![N, C]⟩ ![] hZ (constant (F := Ideal) ⟨0, ![]⟩ .f32 z)) (eo y) := by
  rw [maximumf_apply, maximumf_apply, addf_apply, addf_apply, addf_apply, addf_apply,
    stretchRow_apply, hostStretchRow_apply, hostSplat_apply, hx0, hx1, hx2, h0, h1, h2]
  rfl

/-- THE OUTPUT LAYER of a row block: product plus a one-row bias stretched over the rows. -/
theorem output_block (φ₁ φ₂ : FTy) (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (prec prec' : Option ContractPrecision)
    (X : FVec Ideal ⟨2, ![N, K]⟩ .f32) (W : FVec Ideal ⟨2, ![K, C]⟩ .f32) (B : FVec Ideal ⟨2, ![1, C]⟩ .f32)
    (x0 : FVec Ideal ⟨2, ![R, K]⟩ φ₁) (x1 : FVec Ideal ⟨2, ![K, C]⟩ φ₂) (x2 : FVec Ideal ⟨2, ![1, C]⟩ .f32)
    (e0 : (⟨2, ![R, K]⟩ : Shape).Idx → (⟨2, ![N, K]⟩ : Shape).Idx)
    (e1 : (⟨2, ![K, C]⟩ : Shape).Idx → (⟨2, ![K, C]⟩ : Shape).Idx)
    (e2 : (⟨2, ![1, C]⟩ : Shape).Idx → (⟨2, ![1, C]⟩ : Shape).Idx)
    (eo : (⟨2, ![R, C]⟩ : Shape).Idx → (⟨2, ![N, C]⟩ : Shape).Idx)
    (hx0 : ∀ j, x0 j = X (e0 j)) (hx1 : ∀ j, x1 j = W (e1 j)) (hx2 : ∀ j, x2 j = B (e2 j))
    (h0 : ∀ y k, e0 (rowIdx y k) = rowIdx (eo y) k) (h1 : ∀ y k, e1 (colIdx y k) = colIdx (eo y) k)
    (h2 : ∀ y, e2 (rowZero y) = rowZero (eo y))
    (hb : (⟨2, ![1, C]⟩ : Shape).Broadcasts ⟨2, ![R, C]⟩)
    (hB : (⟨2, ![1, C]⟩ : Shape).BroadcastsInDim ⟨2, ![N, C]⟩ ![0, 1])
    (y : (⟨2, ![R, C]⟩ : Shape).Idx) :
    addf (matmul d prec x0 x1 (constant ⟨2, ![R, C]⟩ .f32 0x00000000#32)) (broadcastTo ⟨2, ![R, C]⟩ x2 hb) y
      = addf (Host.dotGeneral D prec' X W) (broadcastInDim ⟨2, ![N, C]⟩ ![0, 1] hB B) (eo y) := by
  rw [addf_apply, addf_apply,
    dot_block d hd D hD prec prec' X W x0 x1 e0 e1 eo hx0 hx1 h0 h1 y,
    stretchRow_apply, hostStretchRow_apply, hx2, h2]

end Cert.Bridge

end
-- ==== Proof.LibBlockOfWhole.lean ====
/-
  Row blocks of whole-array computations, at the ideal values.

  An [N, C] array is cut into blocks of R consecutive rows; the block that starts at row o holds rows o … o + R − 1.
  Every operation of a dense network acts on each row by itself, so computing on a block gives the block of the
  whole-array result: the product of a row block with a weight matrix is the row block of the product; a bias
  vector stretched down R rows is the row block of the vector stretched down N rows; a column stretched across the
  columns, a constant, a sum, a product, a maximum and the logistic function all commute with taking the block.
  The 0/1 mask of "this row's task is t", computed on a block by comparing the block's task column with t, is the
  block of column t of the one-hot array of all tasks.  The logistic function is the quotient 1 / (1 + exp (−z)) by
  definition, and the bit pattern of 1.0 denotes 1.
-/
import Idealize.ShloMosaic.PureOps.Ideal.Laws
import Idealize.ShloMosaic.Lib.ValueIdx
import Idealize.ShloMosaic.Lib.Pipeline.Value
import Idealize.ShloMosaic.Lib.KernelVsHost
import proofs.«131917_j25305947308740_1_alg».proof.Proof.LibRowBlocks

noncomputable section

namespace Cert.Blocks

open Idealize.ShloMosaic Idealize.ShloMosaic.ValueIdx Cert.Lib.PlainDot Cert.Bridge
open scoped BigOperators

variable {R N K C : Nat}

/-- Entry (p, c) of the block that starts at row o sits at entry (o + p, c) of the array. -/
def shiftRow (o : Nat) (h : o + R ≤ N) (y : (⟨2, ![R, C]⟩ : Shape).Idx) : (⟨2, ![N, C]⟩ : Shape).Idx := fun a => match a with
  | ⟨0, _⟩ => ⟨o + (y 0).val, Nat.lt_of_lt_of_le (Nat.add_lt_add_left (y 0).isLt o) h⟩
  | ⟨1, _⟩ => ⟨(y 1).val, (y 1).isLt⟩

/-- The block of R rows of an array that starts at row o. -/
def rowBlk {α : Type} (o : Nat) (h : o + R ≤ N) (A : (⟨2, ![N, C]⟩ : Shape).Idx → α) : (⟨2, ![R, C]⟩ : Shape).Idx → α :=
  fun y => A (shiftRow o h y)

theorem rowBlk_apply {α : Type} (o : Nat) (h : o + R ≤ N) (A : (⟨2, ![N, C]⟩ : Shape).Idx → α)
    (y : (⟨2, ![R, C]⟩ : Shape).Idx) : rowBlk o h A y = A (shiftRow o h y) := rfl

theorem shiftRow_rowIdx (o : Nat) (h : o + R ≤ N) (y : (⟨2, ![R, C]⟩ : Shape).Idx) (k : Fin K) :
    shiftRow o h (rowIdx y k) = rowIdx (shiftRow o h y) k :=
  funext fun a => Fin.ext (by match a with | ⟨0, _⟩ => rfl | ⟨1, _⟩ => rfl)

theorem shiftRow_colIdx (o : Nat) (h : o + R ≤ N) (y : (⟨2, ![R, C]⟩ : Shape).Idx) (k : Fin K) :
    (colIdx y k : (⟨2, ![K, C]⟩ : Shape).Idx) = colIdx (shiftRow o h y) k :=
  funext fun a => Fin.ext (by match a with | ⟨0, _⟩ => rfl | ⟨1, _⟩ => rfl)

theorem shiftRow_rowZero (o : Nat) (h : o + R ≤ N) (y : (⟨2, ![R, C]⟩ : Shape).Idx) :
    (rowZero y : (⟨2, ![1, C]⟩ : Shape).Idx) = rowZero (shiftRow o h y) :=
  funext fun a => Fin.ext (by match a with | ⟨0, _⟩ => rfl | ⟨1, _⟩ => rfl)

/-! ## Pointwise operations -/

/-- A change of float format is the identity on the extended reals. -/
theorem truncf_ideal {s : Shape} {φ ψ : FTy} (hψ : ψ.bits < φ.bits) (v : FVec Ideal s φ) :
    (truncf ψ v hψ : FVec Ideal s ψ) = v := rfl

theorem addf_rowBlk {φ : FTy} (o : Nat) (h : o + R ≤ N) (A B : FVec Ideal ⟨2, ![N, C]⟩ φ) :
    addf (rowBlk o h A) (rowBlk o h B) = rowBlk o h (addf A B) := rfl

theorem mulf_rowBlk {φ : FTy} (o : Nat) (h : o + R ≤ N) (A B : FVec Ideal ⟨2, ![N, C]⟩ φ) :
    mulf (rowBlk o h A) (rowBlk o h B) = rowBlk o h (mulf A B) := rfl

theorem maximumf_rowBlk {φ : FTy} (o : Nat) (h : o + R ≤ N) (A B : FVec Ideal ⟨2, ![N, C]⟩ φ) :
    maximumf (rowBlk o h A) (rowBlk o h B) = rowBlk o h (maximumf A B) := rfl

/-- A constant array is the block of the constant array. -/
theorem splat_rowBlk (o : Nat) (h : o + R ≤ N) (z : BitVec 32)
    (hZ : (⟨0, ![]⟩ : Shape).BroadcastsInDim ⟨2, ![N, C]⟩ ![]) :
    (broadcast ⟨2, ![R, C]⟩ (Scalar.ofBits (F := Ideal) .f32 z) : FVec Ideal ⟨2, ![R, C]⟩ .f32)
      = rowBlk o h (broadcastInDim ⟨2, ![N, C]⟩ ![] hZ (constant (F := Ideal) ⟨0, ![]⟩ .f32 z)) := by
  funext y
  rw [rowBlk_apply, hostSplat_apply]
  rfl

/-! ## The dense layer's pieces -/

/-- The product of a row block with a weight matrix is the row block of the product. -/
theorem matmul_rowBlk {φ₁ φ₂ : FTy} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ φ₁) (W : FVec Ideal ⟨2, ![K, C]⟩ φ₂) :
    matmul d none (rowBlk o h X) W (constant ⟨2, ![R, C]⟩ .f32 0x00000000#32) = rowBlk o h (Host.dotGeneral D none X W) :=
  funext fun y => dot_block d hd D hD none none X W (rowBlk o h X) W (shiftRow o h) id (shiftRow o h)
    (fun _ => rfl) (fun _ => rfl) (fun y k => shiftRow_rowIdx o h y k) (fun y k => shiftRow_colIdx o h y k) y

/-- A bias vector laid out as one row and stretched down R rows is the row block of the vector broadcast along a new
    leading axis and then down N rows. -/
theorem biasRow_rowBlk {φ : FTy} (o : Nat) (h : o + R ≤ N) (v : FVec Ideal ⟨1, ![C]⟩ φ)
    (h2 : (⟨1, ![C]⟩ : Shape).ShapeCasts ⟨2, ![1, C]⟩) (hb : (⟨2, ![1, C]⟩ : Shape).Broadcasts ⟨2, ![R, C]⟩)
    (hb' : (⟨1, ![C]⟩ : Shape).BroadcastsInDim ⟨2, ![1, C]⟩ ![1])
    (hB : (⟨2, ![1, C]⟩ : Shape).BroadcastsInDim ⟨2, ![N, C]⟩ ![0, 1]) :
    broadcastTo ⟨2, ![R, C]⟩ (shapeCast ⟨2, ![1, C]⟩ v h2) hb
      = rowBlk o h (broadcastInDim ⟨2, ![N, C]⟩ ![0, 1] hB (broadcastInDim ⟨2, ![1, C]⟩ ![1] hb' v)) := by
  funext y
  rw [rowBlk_apply, stretchRow_apply, hostStretchRow_apply, reshapeRow_eq v h2 hb', shiftRow_rowZero o h y]

/-- Entry (p, 0) of a one-column matrix, for the row p of the entry `j`. -/
abbrev colZero {A : Nat} (j : (⟨2, ![A, C]⟩ : Shape).Idx) : (⟨2, ![A, 1]⟩ : Shape).Idx := fun a => match a with
  | ⟨0, _⟩ => ⟨(j 0).val, (j 0).isLt⟩
  | ⟨1, _⟩ => ⟨0, Nat.one_pos⟩

/-- A column stretched across C columns, on a block, is the block of the column stretched across C columns. -/
theorem colStretch_rowBlk {α : Type} (o : Nat) (h : o + R ≤ N) (M : (⟨2, ![N, 1]⟩ : Shape).Idx → α)
    (hb : (⟨2, ![R, 1]⟩ : Shape).Broadcasts ⟨2, ![R, C]⟩)
    (hB : (⟨2, ![N, 1]⟩ : Shape).BroadcastsInDim ⟨2, ![N, C]⟩ ![0, 1]) :
    broadcastTo ⟨2, ![R, C]⟩ (rowBlk (C := 1) o h M) hb = rowBlk o h (broadcastInDim ⟨2, ![N, C]⟩ ![0, 1] hB M) := by
  funext y
  have e1 : broadcastTo ⟨2, ![R, C]⟩ (rowBlk (C := 1) o h M) hb y = rowBlk (C := 1) o h M (colZero y) :=
    broadcastTo_apply _ hb y (colZero y) (fun a => by
      match a with
      | ⟨0, _⟩ =>
        show (y 0).val = if R = 1 then 0 else (y 0).val
        have hlt : (y 0).val < R := (y 0).isLt
        split_ifs with hR
        · omega
        · rfl
      | ⟨1, _⟩ => exact (if_pos rfl).symm)
  have e2 : broadcastInDim ⟨2, ![N, C]⟩ ![0, 1] hB M (shiftRow o h y) = M (colZero (shiftRow o h y)) :=
    broadcastInDim_apply ![0, 1] hB M (shiftRow o h y) (colZero (shiftRow o h y)) (fun a => by
      match a with
      | ⟨0, _⟩ =>
        show o + (y 0).val = if N = 1 then 0 else o + (y 0).val
        have hlt : (y 0).val < R := (y 0).isLt
        split_ifs with hN
        · omega
        · rfl
      | ⟨1, _⟩ => exact (if_pos rfl).symm)
  rw [e1, rowBlk_apply, rowBlk_apply, e2]
  exact congrArg M (funext fun a => Fin.ext (by match a with | ⟨0, _⟩ => rfl | ⟨1, _⟩ => rfl))

/-! ## The task mask -/

/-- The block's 0/1 flag "the row's task word is t" is the block of column t of the one-hot array of the tasks:
    a one-bit comparison widened to 32 bits and read as a signed number is the bit read as an unsigned number,
    and column t of the counting row 0, 1, 2, 3 stretched down the rows holds the word t. -/
theorem mask_rowBlk (o : Nat) (h : o + R ≤ N) (BT : IVec ⟨1, ![N]⟩ 32) (t : Nat) (ht : t < 4) (w : BitVec 32)
    (hw : w = BitVec.ofNat 32 t) (hlt : 1 < 32)
    (hs : (⟨1, ![N]⟩ : Shape).ShapeCasts ⟨2, ![N, 1]⟩)
    (h1 : (⟨1, ![N]⟩ : Shape).BroadcastsInDim ⟨2, ![N, 1]⟩ ![0])
    (h2 : (⟨2, ![N, 1]⟩ : Shape).BroadcastsInDim ⟨2, ![N, 4]⟩ ![0, 1])
    (h3 : (⟨2, ![1, 4]⟩ : Shape).BroadcastsInDim ⟨2, ![N, 4]⟩ ![0, 1])
    (hsl : (⟨2, ![N, 4]⟩ : Shape).Slices ![0, t] ⟨2, ![N, 1]⟩) :
    (sitofp .f32 (extui 32 (cmpi .eq (rowBlk (C := 1) o h (shapeCast ⟨2, ![N, 1]⟩ BT hs)) (broadcast ⟨2, ![R, 1]⟩ w)) hlt)
        : FVec Ideal ⟨2, ![R, 1]⟩ .f32)
      = rowBlk (C := 1) o h (extractStridedSlice ⟨2, ![N, 1]⟩ ![0, t]
          (uitofp (F := Ideal) .f32 (cmpi .eq (broadcastInDim ⟨2, ![N, 4]⟩ ![0, 1] h2 (broadcastInDim ⟨2, ![N, 1]⟩ ![0] h1 BT))
            (broadcastInDim ⟨2, ![N, 4]⟩ ![0, 1] h3 (iotaInDim ⟨2, ![1, 4]⟩ 32 1)))) hsl) := by
  rw [sitofp_extui_eq_uitofp]
  funext y
  rw [rowBlk_apply]
  have hlt : (y 0).val < R := (y 0).isLt
  have hy1 : (y 1).val < 1 := (y 1).isLt
  have hi : o + (y 0).val < N := by omega
  have eL : shapeCast ⟨2, ![N, 1]⟩ BT hs (shiftRow o h y) = BT (ix1 (⟨o + (y 0).val, hi⟩ : Fin N)) :=
    shapeCast_apply BT hs _ (ix1 (⟨o + (y 0).val, hi⟩ : Fin N)) (by
      rw [Shape.rowMajor_val_one, Shape.rowMajor_val_two]
      show o + (y 0).val = (o + (y 0).val) * 1 + (y 1).val
      omega)
  have eS : ∀ G : (⟨2, ![N, 4]⟩ : Shape).Idx → EReal,
      extractStridedSlice ⟨2, ![N, 1]⟩ ![0, t] G hsl (shiftRow o h y)
        = G (ix2 (⟨o + (y 0).val, hi⟩ : Fin N) (⟨t, ht⟩ : Fin 4)) := fun G =>
    extractStridedSlice_apply _ G hsl _ (ix2 (⟨o + (y 0).val, hi⟩ : Fin N) (⟨t, ht⟩ : Fin 4)) (fun a => by
      match a with
      | ⟨0, _⟩ => exact (Nat.zero_add _).symm
      | ⟨1, _⟩ =>
        show t = t + (y 1).val
        omega)
  have eP : broadcastInDim ⟨2, ![N, 4]⟩ ![0, 1] h2 (broadcastInDim ⟨2, ![N, 1]⟩ ![0] h1 BT)
      (ix2 (⟨o + (y 0).val, hi⟩ : Fin N) (⟨t, ht⟩ : Fin 4)) = BT (ix1 (⟨o + (y 0).val, hi⟩ : Fin N)) := by
    rw [broadcastInDim_apply ![0, 1] h2 _ _ (ix2 (⟨o + (y 0).val, hi⟩ : Fin N) (0 : Fin 1)) (fun a => by
        match a with
        | ⟨0, _⟩ =>
          show o + (y 0).val = if N = 1 then 0 else o + (y 0).val
          split_ifs with hN
          · omega
          · rfl
        | ⟨1, _⟩ => exact (if_pos rfl).symm),
      broadcastInDim_apply ![0] h1 BT _ (ix1 (⟨o + (y 0).val, hi⟩ : Fin N)) (fun a => by
        match a with
        | ⟨0, _⟩ =>
          show o + (y 0).val = if N = 1 then 0 else o + (y 0).val
          split_ifs with hN
          · omega
          · rfl)]
  have eQ : broadcastInDim ⟨2, ![N, 4]⟩ ![0, 1] h3 (iotaInDim ⟨2, ![1, 4]⟩ 32 1)
      (ix2 (⟨o + (y 0).val, hi⟩ : Fin N) (⟨t, ht⟩ : Fin 4)) = BitVec.ofNat 32 t := by
    rw [broadcastInDim_apply ![0, 1] h3 _ _ (ix2 (0 : Fin 1) (⟨t, ht⟩ : Fin 4)) (fun a => by
        match a with
        | ⟨0, _⟩ => exact (if_pos rfl).symm
        | ⟨1, _⟩ =>
          show t = if (4 : Nat) = 1 then 0 else t
          rw [if_neg (by decide)])]
    rfl
  rw [eS]
  show FloatOps.uitofp .f32 (IntOp.cmpi .eq (shapeCast ⟨2, ![N, 1]⟩ BT hs (shiftRow o h y)) w)
    = FloatOps.uitofp .f32 (IntOp.cmpi .eq
        (broadcastInDim ⟨2, ![N, 4]⟩ ![0, 1] h2 (broadcastInDim ⟨2, ![N, 1]⟩ ![0] h1 BT)
          (ix2 (⟨o + (y 0).val, hi⟩ : Fin N) (⟨t, ht⟩ : Fin 4)))
        (broadcastInDim ⟨2, ![N, 4]⟩ ![0, 1] h3 (iotaInDim ⟨2, ![1, 4]⟩ 32 1)
          (ix2 (⟨o + (y 0).val, hi⟩ : Fin N) (⟨t, ht⟩ : Fin 4))))
  rw [eL, eP, eQ, hw]

/-! ## The logistic function -/

/-- The bit pattern of 1.0 denotes the real number 1. -/
theorem ofBits_one_f32 : Ideal.ofBits .f32 0x3F800000#32 = 1 := by
  simp [Ideal.ofBits, Ideal.ieee, -EReal.coe_mul]; norm_num

/-- The logistic function of a block is the block of the quotient 1 / (1 + exp (−z)). -/
theorem logistic_rowBlk (o : Nat) (h : o + R ≤ N) (Z : FVec Ideal ⟨2, ![N, C]⟩ .f32)
    (h1 : (⟨0, ![]⟩ : Shape).BroadcastsInDim ⟨2, ![N, C]⟩ ![]) :
    logistic (rowBlk o h Z)
      = rowBlk o h (Host.divf (broadcastInDim ⟨2, ![N, C]⟩ ![] h1 (constant (F := Ideal) ⟨0, ![]⟩ .f32 0x3F800000#32))
          (addf (broadcastInDim ⟨2, ![N, C]⟩ ![] h1 (constant (F := Ideal) ⟨0, ![]⟩ .f32 0x3F800000#32)) (Host.exp (Host.negf Z)))) := by
  funext y
  rw [rowBlk_apply]
  have hsplat : ∀ i, broadcastInDim ⟨2, ![N, C]⟩ ![] h1 (constant (F := Ideal) ⟨0, ![]⟩ .f32 0x3F800000#32) i = 1 :=
    fun i => (hostSplat_apply _ h1 i).trans ofBits_one_f32
  show Ideal.logistic (Z (shiftRow o h y))
    = Ideal.div (broadcastInDim ⟨2, ![N, C]⟩ ![] h1 (constant (F := Ideal) ⟨0, ![]⟩ .f32 0x3F800000#32) (shiftRow o h y))
        (broadcastInDim ⟨2, ![N, C]⟩ ![] h1 (constant (F := Ideal) ⟨0, ![]⟩ .f32 0x3F800000#32) (shiftRow o h y)
          + Ideal.exp (-(Z (shiftRow o h y))))
  rw [hsplat]
  rfl

end Cert.Blocks

end
-- ==== Proof.KBodies.lean ====
/-
  The five kernel bodies on a block of rows, at the ideal values.

  A block holds 4000 consecutive rows of a 100000-row array; narrowing an operand to a shorter float format changes
  nothing at the ideal values, and a cast of an array to its own shape is the identity.  So the plain product body,
  given a row block of X and the whole of W, leaves the row block of X · W; and the encoder body, given a row block of
  X, both weight matrices whole and both biases as single rows, leaves the row block of the encoder of the whole
  arrays — each dense layer, bias stretch and logistic function acts on every row by itself.
-/
import proofs.«131917_j25305947308740_1_alg».proof.Proof.Gen.KernelIdeal.Skeleton
import proofs.«131917_j25305947308740_1_alg».proof.Proof.Spec
import proofs.«131917_j25305947308740_1_alg».proof.Proof.LibBlockOfWhole

noncomputable section

namespace Cert.Gcn

open Idealize.ShloMosaic Idealize.ShloMosaic.ValueIdx
open Cert.KernelIdeal Cert.KernelIdeal.Gen Cert.Blocks Cert.Bridge Cert.Lib.PlainDot

/-- The product of a narrowed row block with narrowed weights, accumulated from zero, is the row block of the
    product of the whole arrays. -/
theorem mm_trunc_rowBlk {R N K C : Nat} (o : Nat) (h : o + R ≤ N)
    (d : DotDims ⟨2, ![R, K]⟩ ⟨2, ![K, C]⟩ ⟨2, ![R, C]⟩) (hd : d = DotDims.plain R K C)
    (D : DotDims ⟨2, ![N, K]⟩ ⟨2, ![K, C]⟩ ⟨2, ![N, C]⟩) (hD : D = DotDims.plain N K C)
    (X : FVec Ideal ⟨2, ![N, K]⟩ .f32) (W : FVec Ideal ⟨2, ![K, C]⟩ .f32) (hlt : FTy.bf16.bits < FTy.f32.bits) :
    matmul d none (truncf .bf16 (rowBlk o h X) hlt) (truncf .bf16 W hlt) (constant ⟨2, ![R, C]⟩ .f32 0x00000000#32)
      = rowBlk o h (Host.dotGeneral D none X W) :=
  funext fun y => dot_block d hd D hD none none X W _ _ (shiftRow o h) id (shiftRow o h) (fun _ => rfl) (fun _ => rfl)
    (fun y k => shiftRow_rowIdx o h y k) (fun y k => shiftRow_colIdx o h y k) y

variable (o : Nat) (h : o + 4000 ≤ 100000)

/-- The product body of regions 1, 2 and 3. -/
theorem mm_body1 (X : FVec Ideal S100000x128 .f32) (W : FVec Ideal S128x128 .f32) :
    k1_pay1 (F := Ideal) (rowBlk o h X) W = rowBlk o h (mm128 X W) := by
  unfold k1_pay1 mm128
  dsimp only
  rw [shapeCast_self, shapeCast_self]
  exact mm_trunc_rowBlk o h _ rfl _ rfl X W _

theorem mm_body2 (X : FVec Ideal S100000x128 .f32) (W : FVec Ideal S128x128 .f32) :
    k2_pay1 (F := Ideal) (rowBlk o h X) W = rowBlk o h (mm128 X W) := by
  unfold k2_pay1 mm128
  dsimp only
  rw [shapeCast_self, shapeCast_self]
  exact mm_trunc_rowBlk o h _ rfl _ rfl X W _

theorem mm_body3 (X : FVec Ideal S100000x128 .f32) (W : FVec Ideal S128x128 .f32) :
    k3_pay1 (F := Ideal) (rowBlk o h X) W = rowBlk o h (mm128 X W) := by
  unfold k3_pay1 mm128
  dsimp only
  rw [shapeCast_self, shapeCast_self]
  exact mm_trunc_rowBlk o h _ rfl _ rfl X W _

/-- The product body of region 4, 16 columns wide. -/
theorem mm_body4 (X : FVec Ideal S100000x128 .f32) (W : FVec Ideal S128x16 .f32) :
    k4_pay1 (F := Ideal) (rowBlk o h X) W = rowBlk o h (mm16 X W) := by
  unfold k4_pay1 mm16
  dsimp only
  rw [shapeCast_self]
  exact mm_trunc_rowBlk o h _ rfl _ rfl X W _

/-- The encoder body of region 0: both dense layers with their logistic functions on a block of rows. -/
theorem enc_body (X : FVec Ideal S100000x128 .f32) (W1 : FVec Ideal S128x128 .f32) (b1 : FVec Ideal S128 .f32)
    (W2 : FVec Ideal S128x128 .f32) (b2 : FVec Ideal S128 .f32) :
    k0_pay1 (F := Ideal) (rowBlk o h X) W1 (shapeCast S1x128 b1 shapeCasts_S128_S1x128) W2
        (shapeCast S1x128 b2 shapeCasts_S128_S1x128)
      = rowBlk o h (encoder X W1 b1 W2 b2) := by
  unfold k0_pay1 encoder sigm dense mm128
  dsimp only
  rw [shapeCast_self, shapeCast_self,
    mm_trunc_rowBlk o h dot_S4000x128_S128x128_S4000x128_1_0_0_1_n_n rfl (DotDims.plain 100000 128 128) rfl X W1,
    biasRow_rowBlk o h b1 shapeCasts_S128_S1x128 broadcasts_S1x128_S4000x128 bcast_S128_S1x128_1 bcast_S1x128_S100000x128_0_1,
    addf_rowBlk, logistic_rowBlk o h _ bcast_S_S100000x128,
    mm_trunc_rowBlk o h dot_S4000x128_S128x128_S4000x128_1_0_0_1_n_n rfl (DotDims.plain 100000 128 128) rfl _ W2,
    biasRow_rowBlk o h b2 shapeCasts_S128_S1x128 broadcasts_S1x128_S4000x128 bcast_S128_S1x128_1 bcast_S1x128_S100000x128_0_1,
    addf_rowBlk, logistic_rowBlk o h _ bcast_S_S100000x128]

end Cert.Gcn

end
-- ==== Proof.KRegions.lean ====
/-
  What each kernel region leaves in its output array, at the ideal values, from any contents V at its entry.

  Every region walks 25 grid points; point t reads rows 4000·t … 4000·t + 3999 of its first operand, the other
  operands whole, and writes the same rows of its output.  A point's write-back is therefore the row block of the
  whole-array function (the body lemmas), the 25 blocks cover the 100000 rows (row r lies in block r / 4000), and the
  output array ends holding the whole-array function of the entry contents: the encoder for region 0, the product
  for regions 1 to 4.
-/
import proofs.«131917_j25305947308740_1_alg».proof.Proof.Gen.KernelIdeal.Frame
import proofs.«131917_j25305947308740_1_alg».proof.Proof.KBodies
import Idealize.ShloMosaic.Lib.Pipeline.Value

set_option maxRecDepth 16384

noncomputable section

namespace Cert.Gcn

open Idealize.ShloMosaic Idealize.ShloMosaic.TcCoe Idealize.ShloMosaic.Pipeline Idealize.SL.Sem
open Cert.KernelIdeal Cert.KernelIdeal.Gen Cert.Blocks

variable (V : (c : Dev nD) → (b : Ref sig .tc) → Buf (Elt Ideal) ((c : Thread nD τ).loc b))

theorem zero_offsets : (![0, 0] : Fin 2 → Nat) = fun _ => 0 := funext fun a => by fin_cases a <;> rfl

/-- Block t of 25 blocks of 4000 rows lies inside the 100000 rows. -/
theorem rows_le {n : Nat} (hn : n = 25) (t : Fin n) : 4000 * t.val + 4000 ≤ 100000 := by
  have := t.isLt; omega

/-! ## Region 0: the encoder -/

/-- The printed index maps over the grid: the input rows and the output move with the point; both weight matrices
    and both bias rows stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem emb0_0 (t : Fin cfg0.N) (j : S4000x128.Idx) :
    ((cfg0.win 0).blk t).view.emb j = shiftRow (4000 * t.val) (rows_le N_0 t) j := by
  obtain ⟨r0, r1, -, -, -, -, -, -, -, -, o0, o1⟩ := idx0 t
  refine funext fun a => Fin.ext ?_
  match a with
  | ⟨0, _⟩ => show win0_0.index t (0 : Fin 2) * 4000 + 1 * (j 0).val = 4000 * t.val + (j 0).val; omega
  | ⟨1, _⟩ => show win0_0.index t (1 : Fin 2) * 128 + 1 * (j 1).val = (j 1).val; omega

theorem emb0_1 (t : Fin cfg0.N) (j : S128x128.Idx) : ((cfg0.win 1).blk t).view.emb j = j := by
  obtain ⟨-, -, a0, a1, b0, b1, c0, c1, d0, d1, -, -⟩ := idx0 t
  refine funext fun a => Fin.ext ?_
  match a with
  | ⟨0, _⟩ => show win0_1.index t (0 : Fin 2) * 128 + 1 * (j 0).val = (j 0).val; omega
  | ⟨1, _⟩ => show win0_1.index t (1 : Fin 2) * 128 + 1 * (j 1).val = (j 1).val; omega

theorem emb0_2 (t : Fin cfg0.N) (j : S1x128.Idx) : ((cfg0.win 2).blk t).view.emb j = j := by
  obtain ⟨-, -, a0, a1, b0, b1, c0, c1, d0, d1, -, -⟩ := idx0 t
  refine funext fun a => Fin.ext ?_
  match a with
  | ⟨0, _⟩ => show win0_2.index t (0 : Fin 2) * 1 + 1 * (j 0).val = (j 0).val; omega
  | ⟨1, _⟩ => show win0_2.index t (1 : Fin 2) * 128 + 1 * (j 1).val = (j 1).val; omega

theorem emb0_3 (t : Fin cfg0.N) (j : S128x128.Idx) : ((cfg0.win 3).blk t).view.emb j = j := by
  obtain ⟨-, -, a0, a1, b0, b1, c0, c1, d0, d1, -, -⟩ := idx0 t
  refine funext fun a => Fin.ext ?_
  match a with
  | ⟨0, _⟩ => show win0_3.index t (0 : Fin 2) * 128 + 1 * (j 0).val = (j 0).val; omega
  | ⟨1, _⟩ => show win0_3.index t (1 : Fin 2) * 128 + 1 * (j 1).val = (j 1).val; omega

theorem emb0_4 (t : Fin cfg0.N) (j : S1x128.Idx) : ((cfg0.win 4).blk t).view.emb j = j := by
  obtain ⟨-, -, a0, a1, b0, b1, c0, c1, d0, d1, -, -⟩ := idx0 t
  refine funext fun a => Fin.ext ?_
  match a with
  | ⟨0, _⟩ => show win0_4.index t (0 : Fin 2) * 1 + 1 * (j 0).val = (j 0).val; omega
  | ⟨1, _⟩ => show win0_4.index t (1 : Fin 2) * 128 + 1 * (j 1).val = (j 1).val; omega

theorem emb0_5 (t : Fin cfg0.N) (j : S4000x128.Idx) :
    ((cfg0.win 5).blk t).view.emb j = shiftRow (4000 * t.val) (rows_le N_0 t) j := by
  obtain ⟨r0, r1, -, -, -, -, -, -, -, -, o0, o1⟩ := idx0 t
  refine funext fun a => Fin.ext ?_
  match a with
  | ⟨0, _⟩ => show win0_5.index t (0 : Fin 2) * 4000 + 1 * (j 0).val = 4000 * t.val + (j 0).val; omega
  | ⟨1, _⟩ => show win0_5.index t (1 : Fin 2) * 128 + 1 * (j 1).val = (j 1).val; omega

/-- What point t writes back is block t of the encoder of the arrays as the region finds them, the two bias windows
    holding the bias vectors laid out as single rows. -/
theorem flushed0 (c : Dev nD) (t : Fin cfg0.N) (b1 b2 : FVec Ideal S128 .f32)
    (hb1 : V c main_v29 = shapeCast S1x128 b1 shapeCasts_S128_S1x128)
    (hb2 : V c main_v30 = shapeCast S1x128 b2 shapeCasts_S128_S1x128) :
    (dat0 V c).flushed 5 t
      = ((cfg0.win 5).blk t).view.read (Elt Ideal) (encoder (F := Ideal) (V c main_arg1) (V c main_arg2) b1 (V c main_arg4) b2) := by
  show (cfg0.win 5).cut (grid0.coords t) ((dat0 V c).after 5 t) = _
  rw [after0_5]
  unfold out0_5
  rw [View.canon_unit_zero zero_offsets]
  simp only [View.ld_unit_zero (S := S4000x128) zero_offsets, View.ld_unit_zero (S := S128x128) zero_offsets,
    View.ld_unit_zero (S := S1x128) zero_offsets]
  have q0 : iblk0 V c 0 t = rowBlk (4000 * t.val) (rows_le N_0 t) (V c main_arg1) :=
    funext fun j => congrArg (V c main_arg1) (emb0_0 t j)
  have q1 : iblk0 V c 1 t = V c main_arg2 := funext fun j => congrArg (V c main_arg2) (emb0_1 t j)
  have q2 : iblk0 V c 2 t = shapeCast S1x128 b1 shapeCasts_S128_S1x128 :=
    (funext fun j => congrArg (V c main_v29) (emb0_2 t j)).trans hb1
  have q3 : iblk0 V c 3 t = V c main_arg4 := funext fun j => congrArg (V c main_arg4) (emb0_3 t j)
  have q4 : iblk0 V c 4 t = shapeCast S1x128 b2 shapeCasts_S128_S1x128 :=
    (funext fun j => congrArg (V c main_v30) (emb0_4 t j)).trans hb2
  rw [q0, q1, q2, q3, q4, enc_body]
  exact funext fun j =>
    (congrArg (encoder (F := Ideal) (V c main_arg1) (V c main_arg2) b1 (V c main_arg4) b2) (emb0_5 t j)).symm

theorem mem_blk0 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v31).slice (win0_5.rect t)).set ↔ _
  rw [View.set_slice_whole, Rect.mem_set_unit]
  exact Iff.rfl

/-- Row r of the output lies in the block of point r / 4000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  have ht : (i 0).val / 4000 < cfg0.N := by rw [hN]; omega
  obtain ⟨-, -, -, -, -, -, -, -, -, -, e4, e5⟩ := idx0 ⟨(i 0).val / 4000, ht⟩
  have e4' : win0_5.index ⟨(i 0).val / 4000, ht⟩ (0 : Fin 2) = (i 0).val / 4000 := e4
  refine ⟨⟨(i 0).val / 4000, ht⟩, flush0_5 _, ?_⟩
  rw [mem_blk0]
  intro a
  match a with
  | ⟨0, _⟩ =>
    show win0_5.index ⟨(i 0).val / 4000, ht⟩ (0 : Fin 2) * 4000 ≤ (i 0).val
      ∧ (i 0).val < win0_5.index ⟨(i 0).val / 4000, ht⟩ (0 : Fin 2) * 4000 + 4000
    omega
  | ⟨1, _⟩ =>
    show win0_5.index ⟨(i 0).val / 4000, ht⟩ (1 : Fin 2) * 128 ≤ (i 1).val
      ∧ (i 1).val < win0_5.index ⟨(i 0).val / 4000, ht⟩ (1 : Fin 2) * 128 + 128
    omega

/-- Region 0's output array after the region: the encoder of the arrays as the region finds them. -/
theorem final0 (c : Dev nD) {X : FVec Ideal S100000x128 .f32} {W1 W2 : FVec Ideal S128x128 .f32} (b1 b2 : FVec Ideal S128 .f32)
    (hX : V c main_arg1 = X) (hW1 : V c main_arg2 = W1) (hb1 : V c main_v29 = shapeCast S1x128 b1 shapeCasts_S128_S1x128)
    (hW2 : V c main_arg4 = W2) (hb2 : V c main_v30 = shapeCast S1x128 b2 shapeCasts_S128_S1x128) :
    (dat0 V c).arrAt 5 cfg0.N = encoder X W1 b1 W2 b2 := by
  subst hX hW1 hW2
  exact (dat0 V c).arrAt_eq_of_cover 5 _ (fun t _ => flushed0 V c t b1 b2 hb1 hb2) cover0

/-! ## Region 1: the product with layer 0's weights -/

/-- The printed index maps over the grid: the row operand and the output move with the point, the weights stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem emb1_0 (t : Fin cfg1.N) (j : S4000x128.Idx) :
    ((cfg1.win 0).blk t).view.emb j = shiftRow (4000 * t.val) (rows_le N_1 t) j := by
  obtain ⟨e0, e1, -, -, -, -⟩ := idx1 t
  refine funext fun a => Fin.ext ?_
  match a with
  | ⟨0, _⟩ => show win1_0.index t (0 : Fin 2) * 4000 + 1 * (j 0).val = 4000 * t.val + (j 0).val; omega
  | ⟨1, _⟩ => show win1_0.index t (1 : Fin 2) * 128 + 1 * (j 1).val = (j 1).val; omega

theorem emb1_1 (t : Fin cfg1.N) (j : S128x128.Idx) : ((cfg1.win 1).blk t).view.emb j = j := by
  obtain ⟨-, -, e2, e3, -, -⟩ := idx1 t
  refine funext fun a => Fin.ext ?_
  match a with
  | ⟨0, _⟩ => show win1_1.index t (0 : Fin 2) * 128 + 1 * (j 0).val = (j 0).val; omega
  | ⟨1, _⟩ => show win1_1.index t (1 : Fin 2) * 128 + 1 * (j 1).val = (j 1).val; omega

theorem emb1_2 (t : Fin cfg1.N) (j : S4000x128.Idx) :
    ((cfg1.win 2).blk t).view.emb j = shiftRow (4000 * t.val) (rows_le N_1 t) j := by
  obtain ⟨-, -, -, -, e4, e5⟩ := idx1 t
  refine funext fun a => Fin.ext ?_
  match a with
  | ⟨0, _⟩ => show win1_2.index t (0 : Fin 2) * 4000 + 1 * (j 0).val = 4000 * t.val + (j 0).val; omega
  | ⟨1, _⟩ => show win1_2.index t (1 : Fin 2) * 128 + 1 * (j 1).val = (j 1).val; omega

/-- What point t writes back is block t of the product of the arrays as the region finds them. -/
theorem flushed1 (c : Dev nD) (t : Fin cfg1.N) :
    (dat1 V c).flushed 2 t
      = ((cfg1.win 2).blk t).view.read (Elt Ideal) (mm128 (F := Ideal) (V c main_v31) (V c main_v33)) := by
  show (cfg1.win 2).cut (grid1.coords t) ((dat1 V c).after 2 t) = _
  rw [after1_2]
  unfold out1_2
  rw [View.canon_unit_zero zero_offsets]
  simp only [View.ld_unit_zero (S := S4000x128) zero_offsets, View.ld_unit_zero (S := S128x128) zero_offsets]
  have b0 : iblk1 V c 0 t = rowBlk (4000 * t.val) (rows_le N_1 t) (V c main_v31) :=
    funext fun j => congrArg (V c main_v31) (emb1_0 t j)
  have b1 : iblk1 V c 1 t = V c main_v33 := funext fun j => congrArg (V c main_v33) (emb1_1 t j)
  rw [b0, b1, mm_body1]
  exact funext fun j => (congrArg (mm128 (F := Ideal) (V c main_v31) (V c main_v33)) (emb1_2 t j)).symm

theorem mem_blk1 (t : Fin cfg1.N) (i : S100000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v36).slice (win1_2.rect t)).set ↔ _
  rw [View.set_slice_whole, Rect.mem_set_unit]
  exact Iff.rfl

/-- Row r of the output lies in the block of point r / 4000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 25 := N_1
  have ht : (i 0).val / 4000 < cfg1.N := by rw [hN]; omega
  obtain ⟨-, -, -, -, e4, e5⟩ := idx1 ⟨(i 0).val / 4000, ht⟩
  have e4' : win1_2.index ⟨(i 0).val / 4000, ht⟩ (0 : Fin 2) = (i 0).val / 4000 := e4
  refine ⟨⟨(i 0).val / 4000, ht⟩, flush1_2 _, ?_⟩
  rw [mem_blk1]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    omega
  | ⟨1, _⟩ =>
    show win1_2.index ⟨(i 0).val / 4000, ht⟩ (1 : Fin 2) * 128 ≤ (i 1).val
      ∧ (i 1).val < win1_2.index ⟨(i 0).val / 4000, ht⟩ (1 : Fin 2) * 128 + 128
    omega

/-- Region 1's output array after the region: the product of its two operands as the region finds them. -/
theorem final1 (c : Dev nD) {X : FVec Ideal S100000x128 .f32} {W : FVec Ideal S128x128 .f32}
    (hX : V c main_v31 = X) (hW : V c main_v33 = W) : (dat1 V c).arrAt 2 cfg1.N = mm128 X W := by
  subst hX hW
  exact (dat1 V c).arrAt_eq_of_cover 2 _ (fun t _ => flushed1 V c t) cover1

/-! ## Region 2: the product with layer 1's weights -/

/-- The printed index maps over the grid: the row operand and the output move with the point, the weights stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem emb2_0 (t : Fin cfg2.N) (j : S4000x128.Idx) :
    ((cfg2.win 0).blk t).view.emb j = shiftRow (4000 * t.val) (rows_le N_2 t) j := by
  obtain ⟨e0, e1, -, -, -, -⟩ := idx2 t
  refine funext fun a => Fin.ext ?_
  match a with
  | ⟨0, _⟩ => show win2_0.index t (0 : Fin 2) * 4000 + 1 * (j 0).val = 4000 * t.val + (j 0).val; omega
  | ⟨1, _⟩ => show win2_0.index t (1 : Fin 2) * 128 + 1 * (j 1).val = (j 1).val; omega

theorem emb2_1 (t : Fin cfg2.N) (j : S128x128.Idx) : ((cfg2.win 1).blk t).view.emb j = j := by
  obtain ⟨-, -, e2, e3, -, -⟩ := idx2 t
  refine funext fun a => Fin.ext ?_
  match a with
  | ⟨0, _⟩ => show win2_1.index t (0 : Fin 2) * 128 + 1 * (j 0).val = (j 0).val; omega
  | ⟨1, _⟩ => show win2_1.index t (1 : Fin 2) * 128 + 1 * (j 1).val = (j 1).val; omega

theorem emb2_2 (t : Fin cfg2.N) (j : S4000x128.Idx) :
    ((cfg2.win 2).blk t).view.emb j = shiftRow (4000 * t.val) (rows_le N_2 t) j := by
  obtain ⟨-, -, -, -, e4, e5⟩ := idx2 t
  refine funext fun a => Fin.ext ?_
  match a with
  | ⟨0, _⟩ => show win2_2.index t (0 : Fin 2) * 4000 + 1 * (j 0).val = 4000 * t.val + (j 0).val; omega
  | ⟨1, _⟩ => show win2_2.index t (1 : Fin 2) * 128 + 1 * (j 1).val = (j 1).val; omega

/-- What point t writes back is block t of the product of the arrays as the region finds them. -/
theorem flushed2 (c : Dev nD) (t : Fin cfg2.N) :
    (dat2 V c).flushed 2 t
      = ((cfg2.win 2).blk t).view.read (Elt Ideal) (mm128 (F := Ideal) (V c main_v52) (V c main_v54)) := by
  show (cfg2.win 2).cut (grid2.coords t) ((dat2 V c).after 2 t) = _
  rw [after2_2]
  unfold out2_2
  rw [View.canon_unit_zero zero_offsets]
  simp only [View.ld_unit_zero (S := S4000x128) zero_offsets, View.ld_unit_zero (S := S128x128) zero_offsets]
  have b0 : iblk2 V c 0 t = rowBlk (4000 * t.val) (rows_le N_2 t) (V c main_v52) :=
    funext fun j => congrArg (V c main_v52) (emb2_0 t j)
  have b1 : iblk2 V c 1 t = V c main_v54 := funext fun j => congrArg (V c main_v54) (emb2_1 t j)
  rw [b0, b1, mm_body2]
  exact funext fun j => (congrArg (mm128 (F := Ideal) (V c main_v52) (V c main_v54)) (emb2_2 t j)).symm

theorem mem_blk2 (t : Fin cfg2.N) (i : S100000x128.Idx) :
    i ∈ ((cfg2.win 2).blk t).view.set ↔ ∀ a : Fin 2, win2_2.index t a * S4000x128.size a ≤ (i a).val
      ∧ (i a).val < win2_2.index t a * S4000x128.size a + S4000x128.size a := by
  show i ∈ ((View.whole main_v57).slice (win2_2.rect t)).set ↔ _
  rw [View.set_slice_whole, Rect.mem_set_unit]
  exact Iff.rfl

/-- Row r of the output lies in the block of point r / 4000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 25 := N_2
  have ht : (i 0).val / 4000 < cfg2.N := by rw [hN]; omega
  obtain ⟨-, -, -, -, e4, e5⟩ := idx2 ⟨(i 0).val / 4000, ht⟩
  have e4' : win2_2.index ⟨(i 0).val / 4000, ht⟩ (0 : Fin 2) = (i 0).val / 4000 := e4
  refine ⟨⟨(i 0).val / 4000, ht⟩, flush2_2 _, ?_⟩
  rw [mem_blk2]
  intro a
  match a with
  | ⟨0, _⟩ =>
    show win2_2.index ⟨(i 0).val / 4000, ht⟩ (0 : Fin 2) * 4000 ≤ (i 0).val
      ∧ (i 0).val < win2_2.index ⟨(i 0).val / 4000, ht⟩ (0 : Fin 2) * 4000 + 4000
    omega
  | ⟨1, _⟩ =>
    show win2_2.index ⟨(i 0).val / 4000, ht⟩ (1 : Fin 2) * 128 ≤ (i 1).val
      ∧ (i 1).val < win2_2.index ⟨(i 0).val / 4000, ht⟩ (1 : Fin 2) * 128 + 128
    omega

/-- Region 2's output array after the region: the product of its two operands as the region finds them. -/
theorem final2 (c : Dev nD) {X : FVec Ideal S100000x128 .f32} {W : FVec Ideal S128x128 .f32}
    (hX : V c main_v52 = X) (hW : V c main_v54 = W) : (dat2 V c).arrAt 2 cfg2.N = mm128 X W := by
  subst hX hW
  exact (dat2 V c).arrAt_eq_of_cover 2 _ (fun t _ => flushed2 V c t) cover2

/-! ## Region 3: the product with layer 2's weights -/

/-- The printed index maps over the grid: the row operand and the output move with the point, the weights stay. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem emb3_0 (t : Fin cfg3.N) (j : S4000x128.Idx) :
    ((cfg3.win 0).blk t).view.emb j = shiftRow (4000 * t.val) (rows_le N_3 t) j := by
  obtain ⟨e0, e1, -, -, -, -⟩ := idx3 t
  refine funext fun a => Fin.ext ?_
  match a with
  | ⟨0, _⟩ => show win3_0.index t (0 : Fin 2) * 4000 + 1 * (j 0).val = 4000 * t.val + (j 0).val; omega
  | ⟨1, _⟩ => show win3_0.index t (1 : Fin 2) * 128 + 1 * (j 1).val = (j 1).val; omega

theorem emb3_1 (t : Fin cfg3.N) (j : S128x128.Idx) : ((cfg3.win 1).blk t).view.emb j = j := by
  obtain ⟨-, -, e2, e3, -, -⟩ := idx3 t
  refine funext fun a => Fin.ext ?_
  match a with
  | ⟨0, _⟩ => show win3_1.index t (0 : Fin 2) * 128 + 1 * (j 0).val = (j 0).val; omega
  | ⟨1, _⟩ => show win3_1.index t (1 : Fin 2) * 128 + 1 * (j 1).val = (j 1).val; omega

theorem emb3_2 (t : Fin cfg3.N) (j : S4000x128.Idx) :
    ((cfg3.win 2).blk t).view.emb j = shiftRow (4000 * t.val) (rows_le N_3 t) j := by
  obtain ⟨-, -, -, -, e4, e5⟩ := idx3 t
  refine funext fun a => Fin.ext ?_
  match a with
  | ⟨0, _⟩ => show win3_2.index t (0 : Fin 2) * 4000 + 1 * (j 0).val = 4000 * t.val + (j 0).val; omega
  | ⟨1, _⟩ => show win3_2.index t (1 : Fin 2) * 128 + 1 * (j 1).val = (j 1).val; omega

/-- What point t writes back is block t of the product of the arrays as the region finds them. -/
theorem flushed3 (c : Dev nD) (t : Fin cfg3.N) :
    (dat3 V c).flushed 2 t
      = ((cfg3.win 2).blk t).view.read (Elt Ideal) (mm128 (F := Ideal) (V c main_v73) (V c main_v75)) := by
  show (cfg3.win 2).cut (grid3.coords t) ((dat3 V c).after 2 t) = _
  rw [after3_2]
  unfold out3_2
  rw [View.canon_unit_zero zero_offsets]
  simp only [View.ld_unit_zero (S := S4000x128) zero_offsets, View.ld_unit_zero (S := S128x128) zero_offsets]
  have b0 : iblk3 V c 0 t = rowBlk (4000 * t.val) (rows_le N_3 t) (V c main_v73) :=
    funext fun j => congrArg (V c main_v73) (emb3_0 t j)
  have b1 : iblk3 V c 1 t = V c main_v75 := funext fun j => congrArg (V c main_v75) (emb3_1 t j)
  rw [b0, b1, mm_body3]
  exact funext fun j => (congrArg (mm128 (F := Ideal) (V c main_v73) (V c main_v75)) (emb3_2 t j)).symm

theorem mem_blk3 (t : Fin cfg3.N) (i : S100000x128.Idx) :
    i ∈ ((cfg3.win 2).blk t).view.set ↔ ∀ a : Fin 2, win3_2.index t a * S4000x128.size a ≤ (i a).val
      ∧ (i a).val < win3_2.index t a * S4000x128.size a + S4000x128.size a := by
  show i ∈ ((View.whole main_v78).slice (win3_2.rect t)).set ↔ _
  rw [View.set_slice_whole, Rect.mem_set_unit]
  exact Iff.rfl

/-- Row r of the output lies in the block of point r / 4000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 25 := N_3
  have ht : (i 0).val / 4000 < cfg3.N := by rw [hN]; omega
  obtain ⟨-, -, -, -, e4, e5⟩ := idx3 ⟨(i 0).val / 4000, ht⟩
  have e4' : win3_2.index ⟨(i 0).val / 4000, ht⟩ (0 : Fin 2) = (i 0).val / 4000 := e4
  refine ⟨⟨(i 0).val / 4000, ht⟩, flush3_2 _, ?_⟩
  rw [mem_blk3]
  intro a
  match a with
  | ⟨0, _⟩ =>
    show win3_2.index ⟨(i 0).val / 4000, ht⟩ (0 : Fin 2) * 4000 ≤ (i 0).val
      ∧ (i 0).val < win3_2.index ⟨(i 0).val / 4000, ht⟩ (0 : Fin 2) * 4000 + 4000
    omega
  | ⟨1, _⟩ =>
    show win3_2.index ⟨(i 0).val / 4000, ht⟩ (1 : Fin 2) * 128 ≤ (i 1).val
      ∧ (i 1).val < win3_2.index ⟨(i 0).val / 4000, ht⟩ (1 : Fin 2) * 128 + 128
    omega

/-- Region 3's output array after the region: the product of its two operands as the region finds them. -/
theorem final3 (c : Dev nD) {X : FVec Ideal S100000x128 .f32} {W : FVec Ideal S128x128 .f32}
    (hX : V c main_v73 = X) (hW : V c main_v75 = W) : (dat3 V c).arrAt 2 cfg3.N = mm128 X W := by
  subst hX hW
  exact (dat3 V c).arrAt_eq_of_cover 2 _ (fun t _ => flushed3 V c t) cover3

/-! ## Region 4: the product with the 16-column weights -/

/-- The printed index maps over the grid: the row operand and the output move with the point, the weights stay. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem emb4_0 (t : Fin cfg4.N) (j : S4000x128.Idx) :
    ((cfg4.win 0).blk t).view.emb j = shiftRow (4000 * t.val) (rows_le N_4 t) j := by
  obtain ⟨e0, e1, -, -, -, -⟩ := idx4 t
  refine funext fun a => Fin.ext ?_
  match a with
  | ⟨0, _⟩ => show win4_0.index t (0 : Fin 2) * 4000 + 1 * (j 0).val = 4000 * t.val + (j 0).val; omega
  | ⟨1, _⟩ => show win4_0.index t (1 : Fin 2) * 128 + 1 * (j 1).val = (j 1).val; omega

theorem emb4_1 (t : Fin cfg4.N) (j : S128x16.Idx) : ((cfg4.win 1).blk t).view.emb j = j := by
  obtain ⟨-, -, e2, e3, -, -⟩ := idx4 t
  refine funext fun a => Fin.ext ?_
  match a with
  | ⟨0, _⟩ => show win4_1.index t (0 : Fin 2) * 128 + 1 * (j 0).val = (j 0).val; omega
  | ⟨1, _⟩ => show win4_1.index t (1 : Fin 2) * 16 + 1 * (j 1).val = (j 1).val; omega

theorem emb4_2 (t : Fin cfg4.N) (j : S4000x16.Idx) :
    ((cfg4.win 2).blk t).view.emb j = shiftRow (4000 * t.val) (rows_le N_4 t) j := by
  obtain ⟨-, -, -, -, e4, e5⟩ := idx4 t
  refine funext fun a => Fin.ext ?_
  match a with
  | ⟨0, _⟩ => show win4_2.index t (0 : Fin 2) * 4000 + 1 * (j 0).val = 4000 * t.val + (j 0).val; omega
  | ⟨1, _⟩ => show win4_2.index t (1 : Fin 2) * 16 + 1 * (j 1).val = (j 1).val; omega

/-- What point t writes back is block t of the product of the arrays as the region finds them. -/
theorem flushed4 (c : Dev nD) (t : Fin cfg4.N) :
    (dat4 V c).flushed 2 t
      = ((cfg4.win 2).blk t).view.read (Elt Ideal) (mm16 (F := Ideal) (V c main_v94) (V c main_arg8)) := by
  show (cfg4.win 2).cut (grid4.coords t) ((dat4 V c).after 2 t) = _
  rw [after4_2]
  unfold out4_2
  rw [View.canon_unit_zero zero_offsets]
  simp only [View.ld_unit_zero (S := S4000x128) zero_offsets, View.ld_unit_zero (S := S128x16) zero_offsets]
  have b0 : iblk4 V c 0 t = rowBlk (4000 * t.val) (rows_le N_4 t) (V c main_v94) :=
    funext fun j => congrArg (V c main_v94) (emb4_0 t j)
  have b1 : iblk4 V c 1 t = V c main_arg8 := funext fun j => congrArg (V c main_arg8) (emb4_1 t j)
  rw [b0, b1, mm_body4]
  exact funext fun j => (congrArg (mm16 (F := Ideal) (V c main_v94) (V c main_arg8)) (emb4_2 t j)).symm

theorem mem_blk4 (t : Fin cfg4.N) (i : S100000x16.Idx) :
    i ∈ ((cfg4.win 2).blk t).view.set ↔ ∀ a : Fin 2, win4_2.index t a * S4000x16.size a ≤ (i a).val
      ∧ (i a).val < win4_2.index t a * S4000x16.size a + S4000x16.size a := by
  show i ∈ ((View.whole main_v95).slice (win4_2.rect t)).set ↔ _
  rw [View.set_slice_whole, Rect.mem_set_unit]
  exact Iff.rfl

/-- Row r of the output lies in the block of point r / 4000. -/
theorem cover4 (i : S100000x16.Idx) :
    ∃ t : Fin cfg4.N, (cfg4.win 2).flush t = true ∧ i ∈ ((cfg4.win 2).blk t).view.set := by
  have hi0 : (i 0).val < 100000 := (i 0).isLt
  have hi1 : (i 1).val < 16 := (i 1).isLt
  have hN : cfg4.N = 25 := N_4
  have ht : (i 0).val / 4000 < cfg4.N := by rw [hN]; omega
  obtain ⟨-, -, -, -, e4, e5⟩ := idx4 ⟨(i 0).val / 4000, ht⟩
  have e4' : win4_2.index ⟨(i 0).val / 4000, ht⟩ (0 : Fin 2) = (i 0).val / 4000 := e4
  refine ⟨⟨(i 0).val / 4000, ht⟩, flush4_2 _, ?_⟩
  rw [mem_blk4]
  intro a
  match a with
  | ⟨0, _⟩ =>
    show win4_2.index ⟨(i 0).val / 4000, ht⟩ (0 : Fin 2) * 4000 ≤ (i 0).val
      ∧ (i 0).val < win4_2.index ⟨(i 0).val / 4000, ht⟩ (0 : Fin 2) * 4000 + 4000
    omega
  | ⟨1, _⟩ =>
    show win4_2.index ⟨(i 0).val / 4000, ht⟩ (1 : Fin 2) * 16 ≤ (i 1).val
      ∧ (i 1).val < win4_2.index ⟨(i 0).val / 4000, ht⟩ (1 : Fin 2) * 16 + 16
    omega

/-- Region 4's output array after the region: the product of its two operands as the region finds them. -/
theorem final4 (c : Dev nD) {X : FVec Ideal S100000x128 .f32} {W : FVec Ideal S128x16 .f32}
    (hX : V c main_v94 = X) (hW : V c main_arg8 = W) : (dat4 V c).arrAt 2 cfg4.N = mm16 X W := by
  subst hX hW
  exact (dat4 V c).arrAt_eq_of_cover 2 _ (fun t _ => flushed4 V c t) cover4

end Cert.Gcn

end
-- ==== Proof.KValue.lean ====
/-
  The kernel program's result is the network function of its arguments, at the ideal values.

  The run passes eleven boundaries: after host stretch 0, after region 0, after stretch 1, … , after stretch 5.
  At each boundary the buffers that matter are named: the edge list's sources, targets and weights (computed once by
  stretch 0 and never written again), the arguments still to be read, the layer's weights and bias just cut out,
  and the feature array — the encoder's output after region 0, then alternately a product with a layer's weights
  (a region) and a graph convolution of that product (a stretch).  The last boundary's result buffer is the
  16-column convolution of the last product: the network of the specification.
-/
import proofs.«131917_j25305947308740_1_alg».proof.Proof.KRun
import proofs.«131917_j25305947308740_1_alg».proof.Proof.KStretch
import proofs.«131917_j25305947308740_1_alg».proof.Proof.KRegions

set_option maxRecDepth 16384

noncomputable section

namespace Cert.Gcn

open Idealize.ShloMosaic Idealize.ShloMosaic.TcCoe Idealize.ShloMosaic.StableHlo Idealize.SL.Sem
open Cert.KernelIdeal Cert.KernelIdeal.Gen

/-- A convolution of equal operands is equal. -/
theorem conv128_congr {F : FTy → Type} [FloatOps F] {xw xw' : FVec F S100000x128 .f32} {s s' d d' : IVec S1700000 32}
    {n n' : FVec F S1700000 .f32} {b b' : FVec F S128 .f32} (h1 : xw = xw') (h2 : s = s') (h3 : d = d') (h4 : n = n')
    (h5 : b = b') : conv128 xw s d n b = conv128 xw' s' d' n' b' := by
  subst h1 h2 h3 h4 h5; rfl

theorem conv16_congr {F : FTy → Type} [FloatOps F] {xw xw' : FVec F S100000x16 .f32} {s s' d d' : IVec S1700000 32}
    {n n' : FVec F S1700000 .f32} {b b' : FVec F S16 .f32} (h1 : xw = xw') (h2 : s = s') (h3 : d = d') (h4 : n = n')
    (h5 : b = b') : conv16 xw s d n b = conv16 xw' s' d' n' b' := by
  subst h1 h2 h3 h4 h5; rfl

variable (m : (ℓ : Loc nD τ sig) → Buf (Elt Ideal) ℓ) (ρ : Dev nD → PrngReg) (c : Dev nD)

/-! ## The arguments as launched, and the arrays the network passes through -/

abbrev A0 : IVec S2x1600000 32 := m ((c.tc : Thread nD τ).loc main_arg0)
abbrev A1 : FVec Ideal S100000x128 .f32 := m ((c.tc : Thread nD τ).loc main_arg1)
abbrev A2 : FVec Ideal S128x128 .f32 := m ((c.tc : Thread nD τ).loc main_arg2)
abbrev A3 : FVec Ideal S128 .f32 := m ((c.tc : Thread nD τ).loc main_arg3)
abbrev A4 : FVec Ideal S128x128 .f32 := m ((c.tc : Thread nD τ).loc main_arg4)
abbrev A5 : FVec Ideal S128 .f32 := m ((c.tc : Thread nD τ).loc main_arg5)
abbrev A6 : FVec Ideal S3x128x128 .f32 := m ((c.tc : Thread nD τ).loc main_arg6)
abbrev A7 : FVec Ideal S3x128 .f32 := m ((c.tc : Thread nD τ).loc main_arg7)
abbrev A8 : FVec Ideal S128x16 .f32 := m ((c.tc : Thread nD τ).loc main_arg8)
abbrev A9 : FVec Ideal S16 .f32 := m ((c.tc : Thread nD τ).loc main_arg9)

/-- The edge list's sources, targets and weights. -/
abbrev Sx : IVec S1700000 32 := srcIdx (A0 m c)
abbrev Dx : IVec S1700000 32 := dstIdx (A0 m c)
abbrev Nx : FVec Ideal S1700000 .f32 := normOf (F := Ideal) (Sx m c) (Dx m c)

/-- The feature array after the encoder and after each of the three 128-column convolutions. -/
abbrev H0 : FVec Ideal S100000x128 .f32 := encoder (A1 m c) (A2 m c) (A3 m c) (A4 m c) (A5 m c)
abbrev H1 : FVec Ideal S100000x128 .f32 := conv128 (mm128 (H0 m c) (gcnW0 (A6 m c))) (Sx m c) (Dx m c) (Nx m c) (gcnB0 (A7 m c))
abbrev H2 : FVec Ideal S100000x128 .f32 := conv128 (mm128 (H1 m c) (gcnW1 (A6 m c))) (Sx m c) (Dx m c) (Nx m c) (gcnB1 (A7 m c))
abbrev H3 : FVec Ideal S100000x128 .f32 := conv128 (mm128 (H2 m c) (gcnW2 (A6 m c))) (Sx m c) (Dx m c) (Nx m c) (gcnB2 (A7 m c))

/-! ## Boundary 1: after stretch 0 -/

theorem w1_src : W1 m ρ c (Proc.devRef .tc main_v3) = Sx m c := s0_src (W0 m ρ c)
theorem w1_dst : W1 m ρ c (Proc.devRef .tc main_v6) = Dx m c := s0_dst (W0 m ρ c)
theorem w1_norm : W1 m ρ c (Proc.devRef .tc main_v28) = Nx m c := s0_norm (W0 m ρ c)
theorem w1_b1 : W1 m ρ c (Proc.devRef .tc main_v29) = shapeCast S1x128 (A3 m c) shapeCasts_S128_S1x128 := s0_b1 (W0 m ρ c)
theorem w1_b2 : W1 m ρ c (Proc.devRef .tc main_v30) = shapeCast S1x128 (A5 m c) shapeCasts_S128_S1x128 := s0_b2 (W0 m ρ c)
theorem w1_arg1 : W1 m ρ c (Proc.devRef .tc main_arg1) = A1 m c := s0_keep_arg1 (W0 m ρ c)
theorem w1_arg2 : W1 m ρ c (Proc.devRef .tc main_arg2) = A2 m c := s0_keep_arg2 (W0 m ρ c)
theorem w1_arg4 : W1 m ρ c (Proc.devRef .tc main_arg4) = A4 m c := s0_keep_arg4 (W0 m ρ c)
theorem w1_arg6 : W1 m ρ c (Proc.devRef .tc main_arg6) = A6 m c := s0_keep_arg6 (W0 m ρ c)
theorem w1_arg7 : W1 m ρ c (Proc.devRef .tc main_arg7) = A7 m c := s0_keep_arg7 (W0 m ρ c)
theorem w1_arg8 : W1 m ρ c (Proc.devRef .tc main_arg8) = A8 m c := s0_keep_arg8 (W0 m ρ c)
theorem w1_arg9 : W1 m ρ c (Proc.devRef .tc main_arg9) = A9 m c := s0_keep_arg9 (W0 m ρ c)

/-! ## What is carried from boundary to boundary -/

/-- The sources at every boundary that still needs them: no region and no later stretch writes them. -/
theorem w2_src : W2 m ρ c (Proc.devRef .tc main_v3) = Sx m c := (W2_of_ne m ρ c main_v3 (by decide)).trans (w1_src m ρ c)
theorem w3_src : W3 m ρ c (Proc.devRef .tc main_v3) = Sx m c := (s1_keep_v3 (W2 m ρ c)).trans (w2_src m ρ c)
theorem w4_src : W4 m ρ c (Proc.devRef .tc main_v3) = Sx m c := (W4_of_ne m ρ c main_v3 (by decide)).trans (w3_src m ρ c)
theorem w5_src : W5 m ρ c (Proc.devRef .tc main_v3) = Sx m c := (s2_keep_v3 (W4 m ρ c)).trans (w4_src m ρ c)
theorem w6_src : W6 m ρ c (Proc.devRef .tc main_v3) = Sx m c := (W6_of_ne m ρ c main_v3 (by decide)).trans (w5_src m ρ c)
theorem w7_src : W7 m ρ c (Proc.devRef .tc main_v3) = Sx m c := (s3_keep_v3 (W6 m ρ c)).trans (w6_src m ρ c)
theorem w8_src : W8 m ρ c (Proc.devRef .tc main_v3) = Sx m c := (W8_of_ne m ρ c main_v3 (by decide)).trans (w7_src m ρ c)
theorem w9_src : W9 m ρ c (Proc.devRef .tc main_v3) = Sx m c := (s4_keep_v3 (W8 m ρ c)).trans (w8_src m ρ c)
theorem w10_src : W10 m ρ c (Proc.devRef .tc main_v3) = Sx m c := (W10_of_ne m ρ c main_v3 (by decide)).trans (w9_src m ρ c)

/-- The targets at every boundary that still needs them: no region and no later stretch writes them. -/
theorem w2_dst : W2 m ρ c (Proc.devRef .tc main_v6) = Dx m c := (W2_of_ne m ρ c main_v6 (by decide)).trans (w1_dst m ρ c)
theorem w3_dst : W3 m ρ c (Proc.devRef .tc main_v6) = Dx m c := (s1_keep_v6 (W2 m ρ c)).trans (w2_dst m ρ c)
theorem w4_dst : W4 m ρ c (Proc.devRef .tc main_v6) = Dx m c := (W4_of_ne m ρ c main_v6 (by decide)).trans (w3_dst m ρ c)
theorem w5_dst : W5 m ρ c (Proc.devRef .tc main_v6) = Dx m c := (s2_keep_v6 (W4 m ρ c)).trans (w4_dst m ρ c)
theorem w6_dst : W6 m ρ c (Proc.devRef .tc main_v6) = Dx m c := (W6_of_ne m ρ c main_v6 (by decide)).trans (w5_dst m ρ c)
theorem w7_dst : W7 m ρ c (Proc.devRef .tc main_v6) = Dx m c := (s3_keep_v6 (W6 m ρ c)).trans (w6_dst m ρ c)
theorem w8_dst : W8 m ρ c (Proc.devRef .tc main_v6) = Dx m c := (W8_of_ne m ρ c main_v6 (by decide)).trans (w7_dst m ρ c)
theorem w9_dst : W9 m ρ c (Proc.devRef .tc main_v6) = Dx m c := (s4_keep_v6 (W8 m ρ c)).trans (w8_dst m ρ c)
theorem w10_dst : W10 m ρ c (Proc.devRef .tc main_v6) = Dx m c := (W10_of_ne m ρ c main_v6 (by decide)).trans (w9_dst m ρ c)

/-- The weights at every boundary that still needs them: no region and no later stretch writes them. -/
theorem w2_norm : W2 m ρ c (Proc.devRef .tc main_v28) = Nx m c := (W2_of_ne m ρ c main_v28 (by decide)).trans (w1_norm m ρ c)
theorem w3_norm : W3 m ρ c (Proc.devRef .tc main_v28) = Nx m c := (s1_keep_v28 (W2 m ρ c)).trans (w2_norm m ρ c)
theorem w4_norm : W4 m ρ c (Proc.devRef .tc main_v28) = Nx m c := (W4_of_ne m ρ c main_v28 (by decide)).trans (w3_norm m ρ c)
theorem w5_norm : W5 m ρ c (Proc.devRef .tc main_v28) = Nx m c := (s2_keep_v28 (W4 m ρ c)).trans (w4_norm m ρ c)
theorem w6_norm : W6 m ρ c (Proc.devRef .tc main_v28) = Nx m c := (W6_of_ne m ρ c main_v28 (by decide)).trans (w5_norm m ρ c)
theorem w7_norm : W7 m ρ c (Proc.devRef .tc main_v28) = Nx m c := (s3_keep_v28 (W6 m ρ c)).trans (w6_norm m ρ c)
theorem w8_norm : W8 m ρ c (Proc.devRef .tc main_v28) = Nx m c := (W8_of_ne m ρ c main_v28 (by decide)).trans (w7_norm m ρ c)
theorem w9_norm : W9 m ρ c (Proc.devRef .tc main_v28) = Nx m c := (s4_keep_v28 (W8 m ρ c)).trans (w8_norm m ρ c)
theorem w10_norm : W10 m ρ c (Proc.devRef .tc main_v28) = Nx m c := (W10_of_ne m ρ c main_v28 (by decide)).trans (w9_norm m ρ c)

/-- Argument 9 at every boundary that still needs it: no region and no later stretch writes it. -/
theorem w2_arg9 : W2 m ρ c (Proc.devRef .tc main_arg9) = A9 m c := (W2_of_ne m ρ c main_arg9 (by decide)).trans (w1_arg9 m ρ c)
theorem w3_arg9 : W3 m ρ c (Proc.devRef .tc main_arg9) = A9 m c := (s1_keep_arg9 (W2 m ρ c)).trans (w2_arg9 m ρ c)
theorem w4_arg9 : W4 m ρ c (Proc.devRef .tc main_arg9) = A9 m c := (W4_of_ne m ρ c main_arg9 (by decide)).trans (w3_arg9 m ρ c)
theorem w5_arg9 : W5 m ρ c (Proc.devRef .tc main_arg9) = A9 m c := (s2_keep_arg9 (W4 m ρ c)).trans (w4_arg9 m ρ c)
theorem w6_arg9 : W6 m ρ c (Proc.devRef .tc main_arg9) = A9 m c := (W6_of_ne m ρ c main_arg9 (by decide)).trans (w5_arg9 m ρ c)
theorem w7_arg9 : W7 m ρ c (Proc.devRef .tc main_arg9) = A9 m c := (s3_keep_arg9 (W6 m ρ c)).trans (w6_arg9 m ρ c)
theorem w8_arg9 : W8 m ρ c (Proc.devRef .tc main_arg9) = A9 m c := (W8_of_ne m ρ c main_arg9 (by decide)).trans (w7_arg9 m ρ c)
theorem w9_arg9 : W9 m ρ c (Proc.devRef .tc main_arg9) = A9 m c := (s4_keep_arg9 (W8 m ρ c)).trans (w8_arg9 m ρ c)
theorem w10_arg9 : W10 m ρ c (Proc.devRef .tc main_arg9) = A9 m c := (W10_of_ne m ρ c main_arg9 (by decide)).trans (w9_arg9 m ρ c)

/-- Argument 6 at every boundary that still needs it: no region and no later stretch writes it. -/
theorem w2_arg6 : W2 m ρ c (Proc.devRef .tc main_arg6) = A6 m c := (W2_of_ne m ρ c main_arg6 (by decide)).trans (w1_arg6 m ρ c)
theorem w3_arg6 : W3 m ρ c (Proc.devRef .tc main_arg6) = A6 m c := (s1_keep_arg6 (W2 m ρ c)).trans (w2_arg6 m ρ c)
theorem w4_arg6 : W4 m ρ c (Proc.devRef .tc main_arg6) = A6 m c := (W4_of_ne m ρ c main_arg6 (by decide)).trans (w3_arg6 m ρ c)
theorem w5_arg6 : W5 m ρ c (Proc.devRef .tc main_arg6) = A6 m c := (s2_keep_arg6 (W4 m ρ c)).trans (w4_arg6 m ρ c)
theorem w6_arg6 : W6 m ρ c (Proc.devRef .tc main_arg6) = A6 m c := (W6_of_ne m ρ c main_arg6 (by decide)).trans (w5_arg6 m ρ c)

/-- Argument 7 at every boundary that still needs it: no region and no later stretch writes it. -/
theorem w2_arg7 : W2 m ρ c (Proc.devRef .tc main_arg7) = A7 m c := (W2_of_ne m ρ c main_arg7 (by decide)).trans (w1_arg7 m ρ c)
theorem w3_arg7 : W3 m ρ c (Proc.devRef .tc main_arg7) = A7 m c := (s1_keep_arg7 (W2 m ρ c)).trans (w2_arg7 m ρ c)
theorem w4_arg7 : W4 m ρ c (Proc.devRef .tc main_arg7) = A7 m c := (W4_of_ne m ρ c main_arg7 (by decide)).trans (w3_arg7 m ρ c)
theorem w5_arg7 : W5 m ρ c (Proc.devRef .tc main_arg7) = A7 m c := (s2_keep_arg7 (W4 m ρ c)).trans (w4_arg7 m ρ c)
theorem w6_arg7 : W6 m ρ c (Proc.devRef .tc main_arg7) = A7 m c := (W6_of_ne m ρ c main_arg7 (by decide)).trans (w5_arg7 m ρ c)

/-- Argument 8 at every boundary that still needs it: no region and no later stretch writes it. -/
theorem w2_arg8 : W2 m ρ c (Proc.devRef .tc main_arg8) = A8 m c := (W2_of_ne m ρ c main_arg8 (by decide)).trans (w1_arg8 m ρ c)
theorem w3_arg8 : W3 m ρ c (Proc.devRef .tc main_arg8) = A8 m c := (s1_keep_arg8 (W2 m ρ c)).trans (w2_arg8 m ρ c)
theorem w4_arg8 : W4 m ρ c (Proc.devRef .tc main_arg8) = A8 m c := (W4_of_ne m ρ c main_arg8 (by decide)).trans (w3_arg8 m ρ c)
theorem w5_arg8 : W5 m ρ c (Proc.devRef .tc main_arg8) = A8 m c := (s2_keep_arg8 (W4 m ρ c)).trans (w4_arg8 m ρ c)
theorem w6_arg8 : W6 m ρ c (Proc.devRef .tc main_arg8) = A8 m c := (W6_of_ne m ρ c main_arg8 (by decide)).trans (w5_arg8 m ρ c)
theorem w7_arg8 : W7 m ρ c (Proc.devRef .tc main_arg8) = A8 m c := (s3_keep_arg8 (W6 m ρ c)).trans (w6_arg8 m ρ c)
theorem w8_arg8 : W8 m ρ c (Proc.devRef .tc main_arg8) = A8 m c := (W8_of_ne m ρ c main_arg8 (by decide)).trans (w7_arg8 m ρ c)
theorem w9_arg8 : W9 m ρ c (Proc.devRef .tc main_arg8) = A8 m c := (s4_keep_arg8 (W8 m ρ c)).trans (w8_arg8 m ρ c)

/-! ## The feature array, boundary by boundary -/

/-- After region 0: the encoder's output. -/
theorem w2_h : W2 m ρ c (Proc.devRef .tc main_v31) = H0 m c :=
  (W2_arr m ρ c 5).trans (final0 (V1 m ρ) c (A3 m c) (A5 m c) (w1_arg1 m ρ c) (w1_arg2 m ρ c) (w1_b1 m ρ c) (w1_arg4 m ρ c) (w1_b2 m ρ c))

/-- After stretch 1: the encoder's output still, and layer 0's weights and bias. -/
theorem w3_h : W3 m ρ c (Proc.devRef .tc main_v31) = H0 m c := (s1_keep_v31 (W2 m ρ c)).trans (w2_h m ρ c)
theorem w3_w : W3 m ρ c (Proc.devRef .tc main_v33) = gcnW0 (A6 m c) := (s1_w (W2 m ρ c)).trans (congrArg gcnW0 (w2_arg6 m ρ c))
theorem w3_b : W3 m ρ c (Proc.devRef .tc main_v35) = gcnB0 (A7 m c) := (s1_b (W2 m ρ c)).trans (congrArg gcnB0 (w2_arg7 m ρ c))

/-- After region 1: the product with layer 0's weights. -/
theorem w4_h : W4 m ρ c (Proc.devRef .tc main_v36) = mm128 (H0 m c) (gcnW0 (A6 m c)) :=
  (W4_arr m ρ c 2).trans (final1 (V3 m ρ) c (w3_h m ρ c) (w3_w m ρ c))
theorem w4_b : W4 m ρ c (Proc.devRef .tc main_v35) = gcnB0 (A7 m c) := (W4_of_ne m ρ c main_v35 (by decide)).trans (w3_b m ρ c)

/-- After stretch 2: the first convolution, and layer 1's weights and bias. -/
theorem w5_h : W5 m ρ c (Proc.devRef .tc main_v52) = H1 m c :=
  (s2_conv (W4 m ρ c)).trans (conv128_congr (w4_h m ρ c) (w4_src m ρ c) (w4_dst m ρ c) (w4_norm m ρ c) (w4_b m ρ c))
theorem w5_w : W5 m ρ c (Proc.devRef .tc main_v54) = gcnW1 (A6 m c) := (s2_w (W4 m ρ c)).trans (congrArg gcnW1 (w4_arg6 m ρ c))
theorem w5_b : W5 m ρ c (Proc.devRef .tc main_v56) = gcnB1 (A7 m c) := (s2_b (W4 m ρ c)).trans (congrArg gcnB1 (w4_arg7 m ρ c))

/-- After region 2: the product with layer 1's weights. -/
theorem w6_h : W6 m ρ c (Proc.devRef .tc main_v57) = mm128 (H1 m c) (gcnW1 (A6 m c)) :=
  (W6_arr m ρ c 2).trans (final2 (V5 m ρ) c (w5_h m ρ c) (w5_w m ρ c))
theorem w6_b : W6 m ρ c (Proc.devRef .tc main_v56) = gcnB1 (A7 m c) := (W6_of_ne m ρ c main_v56 (by decide)).trans (w5_b m ρ c)

/-- After stretch 3: the second convolution, and layer 2's weights and bias. -/
theorem w7_h : W7 m ρ c (Proc.devRef .tc main_v73) = H2 m c :=
  (s3_conv (W6 m ρ c)).trans (conv128_congr (w6_h m ρ c) (w6_src m ρ c) (w6_dst m ρ c) (w6_norm m ρ c) (w6_b m ρ c))
theorem w7_w : W7 m ρ c (Proc.devRef .tc main_v75) = gcnW2 (A6 m c) := (s3_w (W6 m ρ c)).trans (congrArg gcnW2 (w6_arg6 m ρ c))
theorem w7_b : W7 m ρ c (Proc.devRef .tc main_v77) = gcnB2 (A7 m c) := (s3_b (W6 m ρ c)).trans (congrArg gcnB2 (w6_arg7 m ρ c))

/-- After region 3: the product with layer 2's weights. -/
theorem w8_h : W8 m ρ c (Proc.devRef .tc main_v78) = mm128 (H2 m c) (gcnW2 (A6 m c)) :=
  (W8_arr m ρ c 2).trans (final3 (V7 m ρ) c (w7_h m ρ c) (w7_w m ρ c))
theorem w8_b : W8 m ρ c (Proc.devRef .tc main_v77) = gcnB2 (A7 m c) := (W8_of_ne m ρ c main_v77 (by decide)).trans (w7_b m ρ c)

/-- After stretch 4: the third convolution. -/
theorem w9_h : W9 m ρ c (Proc.devRef .tc main_v94) = H3 m c :=
  (s4_conv (W8 m ρ c)).trans (conv128_congr (w8_h m ρ c) (w8_src m ρ c) (w8_dst m ρ c) (w8_norm m ρ c) (w8_b m ρ c))

/-- After region 4: the product with the 16-column weights. -/
theorem w10_h : W10 m ρ c (Proc.devRef .tc main_v95) = mm16 (H3 m c) (A8 m c) :=
  (W10_arr m ρ c 2).trans (final4 (V9 m ρ) c (w9_h m ρ c) (w9_arg8 m ρ c))

/-- After stretch 5, the last boundary: the result buffer holds the network of the arguments as launched. -/
theorem kernel_value : W11 m ρ c (Proc.devRef .tc main_v111)
    = network (F := Ideal) (A0 m c) (A1 m c) (A2 m c) (A3 m c) (A4 m c) (A5 m c) (A6 m c) (A7 m c) (A8 m c) (A9 m c) :=
  (s5_conv (W10 m ρ c)).trans
    (conv16_congr (w10_h m ρ c) (w10_src m ρ c) (w10_dst m ρ c) (w10_norm m ρ c) (w10_arg9 m ρ c))

/-- The kernel program's run: every weakly fair execution terminates, the result is the network of the launch contents
    of the arguments, and the arguments are unchanged. -/
theorem kernel_run : θ_run defs (onTc (τ := τ) (main (F := Ideal))) ⟨m, fun _ => 0, ρ⟩ (fun r => ∀ c : Dev nD,
      r.2.mem ((c.tc : Thread nD τ).loc main_v111)
        = network (F := Ideal) (A0 m c) (A1 m c) (A2 m c) (A3 m c) (A4 m c) (A5 m c) (A6 m c) (A7 m c) (A8 m c) (A9 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (kernel_value m ρ c), (h c).2⟩)
    (Cert.KernelIdeal.RunValue.run_result m ρ)

end Cert.Gcn

end
-- ==== Proof.RefSide.lean ====
/-
  The reference computes the network function.

  The reference program is host operations only; its run ends with the result at the operations composed.  That
  composition is the network of the specification read off term by term: the same edge list, the same weights
  (computed once per convolution there, the same expression each time), the same dense products, the logistic function
  spelled 1 / (1 + exp (−z)).  Nothing is evaluated: the two terms agree after their names are unfolded.
-/
import proofs.«131917_j25305947308740_1_alg».proof.Proof.Gen.ReferenceIdeal.Run
import proofs.«131917_j25305947308740_1_alg».proof.Proof.Gen.KernelIdeal
import proofs.«131917_j25305947308740_1_alg».proof.Proof.Spec

set_option maxRecDepth 16384

noncomputable section

namespace Cert.Gcn

open Idealize.ShloMosaic Idealize.ShloMosaic.TcCoe Idealize.SL.Sem Idealize.ShloMosaic.StableHlo

variable {F : FTy → Type} [FloatOps F]

-- the gathers and scatters are compared as whole applications, never opened
attribute [local irreducible] Host.gather Host.scatterAdd

set_option maxHeartbeats 4000000 in
/-- The reference's result buffer after its operations, from any contents of the arguments, is the network of them. -/
theorem ref_result (V0 : Valuation Cert.ReferenceIdeal.τ Cert.ReferenceIdeal.sig (Elt F)) :
    Cert.ReferenceIdeal.Value.val4 V0 (Proc.devRef .tc Cert.ReferenceIdeal.main_v194)
      = network (F := F)
          (V0 (Proc.devRef .tc Cert.ReferenceIdeal.main_arg0))
          (V0 (Proc.devRef .tc Cert.ReferenceIdeal.main_arg1))
          (V0 (Proc.devRef .tc Cert.ReferenceIdeal.main_arg2))
          (V0 (Proc.devRef .tc Cert.ReferenceIdeal.main_arg3))
          (V0 (Proc.devRef .tc Cert.ReferenceIdeal.main_arg4))
          (V0 (Proc.devRef .tc Cert.ReferenceIdeal.main_arg5))
          (V0 (Proc.devRef .tc Cert.ReferenceIdeal.main_arg6))
          (V0 (Proc.devRef .tc Cert.ReferenceIdeal.main_arg7))
          (V0 (Proc.devRef .tc Cert.ReferenceIdeal.main_arg8))
          (V0 (Proc.devRef .tc Cert.ReferenceIdeal.main_arg9)) :=
  (Cert.ReferenceIdeal.Value.val4_main_v194 V0).trans (by
    unfold Cert.ReferenceIdeal.Value.res_main_v191 Cert.ReferenceIdeal.Value.res_main_v106
    rfl)

/-- The reference's run: every weakly fair execution terminates, the result is the network of the launch contents of
    the arguments, and the arguments are unchanged. -/
theorem ref_run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      fun r => ∀ c : Dev Cert.ReferenceIdeal.nD,
        r.2.mem ((c.tc : Thread Cert.ReferenceIdeal.nD Cert.ReferenceIdeal.τ).loc Cert.ReferenceIdeal.main_v194)
          = network (F := F)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7))
              (m ((c.tc : Thread Cert.ReferenceIdeal.nD Cert.ReferenceIdeal.τ).loc Cert.ReferenceIdeal.main_arg8))
              (m ((c.tc : Thread Cert.ReferenceIdeal.nD Cert.ReferenceIdeal.τ).loc Cert.ReferenceIdeal.main_arg9))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) :=
  (θ_run Cert.ReferenceIdeal.defs _ _).mono
    (fun r h c => ⟨(h c).1.trans ((Cert.ReferenceIdeal.Value.val4_main_v194 _).symm.trans (ref_result (launchContents m c))), (h c).2⟩)
    (Cert.ReferenceIdeal.Value.run (F := F) m ρ)

end Cert.Gcn

end
-- ==== Proof.lean ====
/-
  A graph network on 100000 nodes and 1,700,000 list entries (the given edges and one self loop per node): a
  two-layer encoder with logistic activations, three graph convolutions of 128 columns and one of 16 columns, each
  convolution the sum over the entries into a node of the source's row of h · W, weighted by
  1 / sqrt (max deg 1) at both ends, plus a bias.

  The kernel program computes the dense parts — the encoder and the four products h · W — in five kernel regions,
  each over 25 blocks of 4000 rows with operands narrowed to a shorter float format, and everything on the graph by
  host operations; the reference computes everything by host operations, the edge weights once per convolution.
  At the ideal values narrowing is the identity, a product accumulated from zero is the plain sum over the contracted
  axis, the in-kernel logistic function is 1 / (1 + exp (−z)), and every dense operation acts on each row by itself, so
  each region leaves in its output array the whole-array operation of its operands; the host operations on the graph
  are the same on both sides.  Both programs therefore end with one and the same function of the ten arguments
  (`Cert.Gcn.network`), for all extended-real inputs: no cancellation or distribution law is used, so the
  precondition is never opened.  Nothing the ideal pass rewrote needs a statement: its ledger is empty.
-/
import proofs.«131917_j25305947308740_1_alg».proof.Defs
import proofs.«131917_j25305947308740_1_alg».proof.Proof.Gen.Kernel
import proofs.«131917_j25305947308740_1_alg».proof.Proof.Gen.Kernel.Frame
import proofs.«131917_j25305947308740_1_alg».proof.Proof.Gen.KernelIdeal
import proofs.«131917_j25305947308740_1_alg».proof.Proof.Gen.KernelIdeal.Frame
import proofs.«131917_j25305947308740_1_alg».proof.Proof.Gen.ReferenceIdeal
import proofs.«131917_j25305947308740_1_alg».proof.Proof.Gen.Pre_finite_inputs
import proofs.«131917_j25305947308740_1_alg».proof.Proof.KValue
import proofs.«131917_j25305947308740_1_alg».proof.Proof.RefSide

noncomputable section

namespace Cert.Proof

open Idealize.ShloMosaic Idealize.ShloMosaic.TcCoe Idealize.SL.Sem

/-- The three frames: the two kernel programs by their generated frame certificates, the reference by its run with the
    result dropped. -/
theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.Gcn.ref_run (F := Ideal) m ρ)

/-- The ideal pass rewrote nothing. -/
theorem preserves : Cert.preserves_Kernel_KernelIdeal := trivial

/-- Both idealized programs end with the network function of their arguments; the arguments agree. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.Gcn.kernel_run m ρ, ?_⟩
  refine (θ_run Cert.ReferenceIdeal.defs _ _).mono (fun r h c => ⟨(h c).1.trans ?_, (h c).2⟩)
    (Cert.Gcn.ref_run (F := Ideal) m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
